-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) (main_arg2 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S16x8x128 : Shape := ⟨3, ![16, 8, 128]⟩
abbrev S512x1 : Shape := ⟨2, ![512, 1]⟩
abbrev S1x512 : Shape := ⟨2, ![1, 512]⟩
abbrev S1x8x128 : Shape := ⟨3, ![1, 8, 128]⟩
abbrev S1x1 : Shape := ⟨2, ![1, 1]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 26
  | .vmem => 18
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S8192x1, .f32⟩
  | .hbm, ⟨4, _⟩ => ⟨S1x8192, .f32⟩
  | .hbm, ⟨5, _⟩ => ⟨S8192x1, .i32⟩
  | .hbm, ⟨6, _⟩ => ⟨S1x8192, .i32⟩
  | .hbm, ⟨7, _⟩ => ⟨S8192x1, .i32⟩
  | .hbm, ⟨8, _⟩ => ⟨S1x8192, .i32⟩
  | .hbm, ⟨9, _⟩ => ⟨S16x8x128, .f32⟩
  | .hbm, ⟨10, _⟩ => ⟨S16x8x128, .f32⟩
  | .hbm, ⟨11, _⟩ => ⟨S16x1x1, .f32⟩
  | .hbm, ⟨12, _⟩ => ⟨S16, .f32⟩
  | .hbm, ⟨13, _⟩ => ⟨S_, .f32⟩
  | .hbm, ⟨14, _⟩ => ⟨S_, .f32⟩
  | .hbm, ⟨15, _⟩ => ⟨S16x1x1, .f32⟩
  | .hbm, ⟨16, _⟩ => ⟨S16, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .i32⟩
  | .local _ .vmem, ⟨9, _⟩ => ⟨S512x1, .i32⟩
  | .local _ .vmem, ⟨10, _⟩ => ⟨S1x512, .i32⟩
  | .local _ .vmem, ⟨11, _⟩ => ⟨S1x512, .i32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x1, .f32⟩
  | .local _ .vmem, ⟨17, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S16x8x128.size a
  hwx0_6 : ∀ i : grid0.Coords, EltTy.bits .f32 = 32 ∨ (Rect.block (s := S16x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S16x8x128.size a
  hwx0_7 : ∀ i : grid0.Coords, EltTy.bits .f32 = 32 ∨ (Rect.block (s := S16x8x128) S1x8x128.size (cc0_transform_7 i) (hinb0_7 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192, .i32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x1, .i32⟩
  | .hbm, ⟨9, _⟩ => ⟨S1x8192, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .i32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_call0_cst : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_
  h_S_ : 0 < S_.numel

variable [Facts₀]

class Facts : Prop extends Facts₀ where

variable [Facts]
-- ==== Proof.LibBlockSum.lean ====
/-
  Three general facts about finite sums in a commutative additive monoid, with no program in sight: a running total
  that starts at the first term and adds the next term at every step is the sum of the terms so far; a sum over an
  initial segment of the naturals is the sum over the finite type of its elements; and a sum over `a * b` indices
  regroups into `a` consecutive blocks of `b`.
-/
import Mathlib.Algebra.BigOperators.Fin
import Mathlib.Data.Fintype.BigOperators
import Mathlib.Logic.Equiv.Fin.Basic
import Mathlib.Tactic.Ring

open scoped BigOperators

namespace Cert.LibBlockSum

/-- A RUNNING TOTAL IS A SUM. If `acc 0` is the first term and each step adds the next term, then after step `n` the
    total is the sum of the terms `0, …, n`. -/
theorem run_sum {M : Type*} [AddCommMonoid M] (g acc : ℕ → M) (h0 : acc 0 = g 0)
    (hs : ∀ k, acc (k + 1) = acc k + g (k + 1)) (n : ℕ) : acc n = ∑ k ∈ Finset.range (n + 1), g k := by
  induction n with
  | zero => rw [Finset.sum_range_succ, Finset.sum_range_zero, zero_add]; exact h0
  | succ n ih => rw [hs, ih, Finset.sum_range_succ _ (n + 1)]

/-- The same from an EMPTY start: if `acc 0` is zero and step `k` adds the term `k`, then after `n` steps the total is
    the sum of the terms `0, …, n - 1`. -/
theorem run_sum_zero {M : Type*} [AddCommMonoid M] (g acc : ℕ → M) (h0 : acc 0 = 0)
    (hs : ∀ k, acc (k + 1) = acc k + g k) (n : ℕ) : acc n = ∑ k ∈ Finset.range n, g k := by
  induction n with
  | zero => rw [Finset.sum_range_zero]; exact h0
  | succ n ih => rw [hs, ih, Finset.sum_range_succ]

/-- A sum over the naturals below `n` is the sum over `Fin n` of the term at each element's value
    (Mathlib's `Finset.sum_range`). -/
theorem sum_range_eq_sum_fin {M : Type*} [AddCommMonoid M] (n : ℕ) (g : ℕ → M) :
    ∑ k ∈ Finset.range n, g k = ∑ k : Fin n, g k.val :=
  Finset.sum_range g

/-- Position `j` of block `i`, among `a` consecutive blocks of `b`, is below `a * b`. -/
theorem block_lt {a b : ℕ} (i : Fin a) (j : Fin b) : b * i.val + j.val < a * b := by
  have hi : i.val + 1 ≤ a := i.isLt
  calc b * i.val + j.val < b * i.val + b := Nat.add_lt_add_left j.isLt _
    _ = b * (i.val + 1) := by ring
    _ ≤ b * a := Nat.mul_le_mul_left b hi
    _ = a * b := Nat.mul_comm b a

/-- REGROUPING INTO BLOCKS. A sum over `a * b` indices is the sum, over the `a` consecutive blocks of `b` indices, of the
    sum over each block: index `b * i + j` is position `j` of block `i` (the bijection `finProdFinEquiv`). -/
theorem sum_blocks_mul {M : Type*} [AddCommMonoid M] (a b : ℕ) (f : Fin (a * b) → M) :
    ∑ i : Fin a, ∑ j : Fin b, f ⟨b * i.val + j.val, block_lt i j⟩ = ∑ k : Fin (a * b), f k := by
  rw [← Equiv.sum_comp finProdFinEquiv f, Fintype.sum_prod_type]
  refine Finset.sum_congr rfl fun i _ => Finset.sum_congr rfl fun j _ => congrArg f (Fin.ext ?_)
  show b * i.val + j.val = j.val + b * i.val
  exact Nat.add_comm _ _

/-- The instance used by a pass over 16 column blocks of 256 columns: 4096 columns in all. -/
theorem sum_blocks {M : Type*} [AddCommMonoid M] (f : Fin 4096 → M) :
    ∑ cb : Fin 16, ∑ l : Fin 256, f ⟨256 * cb.val + l.val, block_lt (a := 16) cb l⟩ = ∑ j : Fin 4096, f j :=
  sum_blocks_mul 16 256 f

/-- … and the one used by a pass over 8 row blocks of 512 rows: 4096 rows in all. -/
theorem sum_row_blocks {M : Type*} [AddCommMonoid M] (f : Fin 4096 → M) :
    ∑ rb : Fin 8, ∑ r : Fin 512, f ⟨512 * rb.val + r.val, block_lt (a := 8) rb r⟩ = ∑ i : Fin 4096, f i :=
  sum_blocks_mul 8 512 f

end Cert.LibBlockSum
-- ==== Proof.Spec.lean ====
/-
  The mathematics of the pairwise hinge loss, with no program in sight.

  For predictions `p : Fin 8192 → EReal` and two integer labels per item (`gal`, `grp`), the ordered pair `(i, j)` is
  ELIGIBLE when the items share a group and item `i` has strictly more units than item `j` (signed comparison); an
  eligible pair contributes the squared hinge `max (p i - p j + margin) 0 ^ 2`, any other pair contributes `0`.  The
  loss is the total contribution divided by the number of eligible pairs (at least one), and `0` when no pair is
  eligible.

  Both programs compute exactly these per-pair terms; they differ in how the 8192 × 8192 terms are added up.  One adds
  them all at once; the other cuts the index square into 16 × 16 tiles of 512 × 512, adds inside a tile, then along a
  row of tiles, then over the 16 rows (`tiled`).  On the extended reals addition is commutative and associative, so
  the two totals agree (`tiled_eq`) with no finiteness assumption.
-/
import Idealize.ShloMosaic.PureOps.Ideal
import Idealize.ShloMosaic.PureOps.Ideal.Laws
import Idealize.ShloMosaic.Lib.ValueIdx
import proofs.«117161_j48455821033938_1_alg».proof.Proof.LibBlockSum

noncomputable section

namespace Cert.Mono

open Idealize.ShloMosaic

/-- The hinge margin: the binary32 number nearest to 0.1, the same word in both programs. -/
abbrev margin : EReal := Ideal.ofBits .f32 0x3DCCCCCD#32

/-- Eligibility of the pair (row item `i`, column item `j`) as one bit: same group AND the row item has more units
    (signed).  Row items and column items may come from different index types (a tile's rows and its columns). -/
def mbit2 {α β : Type} (galr grpr : α → BitVec 32) (galc grpc : β → BitVec 32) (i : α) (j : β) : BitVec 1 :=
  IntOp.andi (IntOp.cmpi .eq (grpr i) (grpc j)) (IntOp.cmpi .sgt (galr i) (galc j))

/-- The pair's contribution to the total: the squared hinge where eligible, else zero. -/
def viol2 {α β : Type} (pr : α → EReal) (pc : β → EReal) (galr grpr : α → BitVec 32) (galc grpc : β → BitVec 32)
    (i : α) (j : β) : EReal :=
  Scalar.select (mbit2 galr grpr galc grpc i j) (max (pr i - pc j + margin) 0 * max (pr i - pc j + margin) 0) 0

/-- The pair's contribution to the count, as an extended real: the eligibility bit widened to 32 bits, read signed. -/
def cnt2 {α β : Type} (galr grpr : α → BitVec 32) (galc grpc : β → BitVec 32) (i : α) (j : β) : EReal :=
  ((((mbit2 galr grpr galc grpc i j).setWidth 32).toInt : ℝ) : EReal)

/-- The same three over ONE list of 8192 items, rows and columns alike. -/
def mbit (gal grp : Fin 8192 → BitVec 32) (i j : Fin 8192) : BitVec 1 := mbit2 gal grp gal grp i j
def viol (p : Fin 8192 → EReal) (gal grp : Fin 8192 → BitVec 32) (i j : Fin 8192) : EReal :=
  viol2 p p gal grp gal grp i j
def cnt (gal grp : Fin 8192 → BitVec 32) (i j : Fin 8192) : EReal := cnt2 gal grp gal grp i j

/-- Row (or column) `r` of tile `I`: global index `512 I + r`. -/
def bi (I : Fin 16) (r : Fin 512) : Fin 8192 := ⟨512 * I.val + r.val, Cert.LibBlockSum.block_lt (a := 16) I r⟩

/-- The sum of `f` over tile `(I, J)`. -/
def blockSum (f : Fin 8192 → Fin 8192 → EReal) (I J : Fin 16) : EReal :=
  ∑ r : Fin 512, ∑ q : Fin 512, f (bi I r) (bi J q)

/-- The sum of `f` over row `I` of tiles. -/
def rowSum (f : Fin 8192 → Fin 8192 → EReal) (I : Fin 16) : EReal := ∑ J : Fin 16, blockSum f I J

/-- The sum of `f` over all tiles, row of tiles by row of tiles. -/
def tiled (f : Fin 8192 → Fin 8192 → EReal) : EReal := ∑ I : Fin 16, rowSum f I

/-- The last step of both programs: `total / max count 1` where `count > 0`, else `0`. -/
def combine (T C : EReal) : EReal := Scalar.select (Ideal.cmp .ogt C 0) (Ideal.div T (max C 1)) 0

/-- Tile by tile or all at once: the same total (regroup the columns inside each row, swap, regroup the rows). -/
theorem tiled_eq (f : Fin 8192 → Fin 8192 → EReal) : tiled f = ∑ i : Fin 8192, ∑ j : Fin 8192, f i j := by
  unfold tiled rowSum blockSum
  have hcol : ∀ (I : Fin 16) (r : Fin 512),
      ∑ J : Fin 16, ∑ q : Fin 512, f (bi I r) (bi J q) = ∑ j : Fin 8192, f (bi I r) j :=
    fun I r => Cert.LibBlockSum.sum_blocks_mul 16 512 (fun j => f (bi I r) j)
  have hrow : ∑ I : Fin 16, ∑ r : Fin 512, (∑ j : Fin 8192, f (bi I r) j) = ∑ i : Fin 8192, ∑ j : Fin 8192, f i j :=
    Cert.LibBlockSum.sum_blocks_mul 16 512 (fun i => ∑ j : Fin 8192, f i j)
  rw [← hrow]
  refine Finset.sum_congr rfl fun I _ => ?_
  rw [Finset.sum_comm]
  refine Finset.sum_congr rfl fun r _ => ?_
  rw [← hcol I r, Finset.sum_comm]

end Cert.Mono

end
-- ==== Proof.KDefs.lean ====
/-
  Names shared by the modules that read the tiled program: its three argument arrays item by item, the tile a grid
  point works on, and a tile's column block and row block read by position.
-/
import proofs.«117161_j48455821033938_1_alg».proof.Proof.Gen.KernelIdeal.Frame
import proofs.«117161_j48455821033938_1_alg».proof.Proof.Spec
import Idealize.ShloMosaic.Lib.ValueIdx
import Idealize.ShloMosaic.Lib.Pipeline.Value

noncomputable section

namespace Cert.KernelIdeal.KV

open Idealize.ShloMosaic Idealize.ShloMosaic.TcCoe Idealize.SL.Sem
open Cert.KernelIdeal Cert.KernelIdeal.Gen

variable (m : (ℓ : Loc nD τ sig) → Buf (Elt Ideal) ℓ)

/-- The predictions the program is launched with, item by item. -/
def pred (c : Dev nD) : Fin 8192 → EReal :=
  fun i => (m ((c.tc : Thread nD τ).loc main_arg0) : S8192.Idx → Ideal .f32) (ValueIdx.ix1 i)

/-- The unit counts, item by item. -/
def gal (c : Dev nD) : Fin 8192 → BitVec 32 :=
  fun i => (m ((c.tc : Thread nD τ).loc main_arg1) : S8192.Idx → BitVec 32) (ValueIdx.ix1 i)

/-- The group labels, item by item. -/
def grp (c : Dev nD) : Fin 8192 → BitVec 32 :=
  fun i => (m ((c.tc : Thread nD τ).loc main_arg2) : S8192.Idx → BitVec 32) (ValueIdx.ix1 i)

/-- Grid point `t` of the 16 × 16 grid (row-major) works on tile row `t / 16` … -/
def tI (t : Fin cfg0.N) : Fin 16 := ⟨t.val / 16, by have h := t.isLt; have hN : cfg0.N = 256 := N_0; omega⟩

/-- … and tile column `t % 16`. -/
def tJ (t : Fin cfg0.N) : Fin 16 := ⟨t.val % 16, Nat.mod_lt _ (by decide)⟩

/-- A [512, 1] column block read by row position. -/
def colf {α : Type} (x : S512x1.Idx → α) : Fin 512 → α := fun r => x (ValueIdx.ix2 r (0 : Fin 1))

/-- A [1, 512] row block read by column position. -/
def rowf {α : Type} (x : S1x512.Idx → α) : Fin 512 → α := fun q => x (ValueIdx.ix2 (0 : Fin 1) q)

end Cert.KernelIdeal.KV

end
-- ==== Proof.Pieces.lean ====
import proofs.«117161_j48455821033938_1_alg».proof.Proof.KDefs

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

/-
  What one grid point of the tiled program leaves behind, for any float instance.

  The body has three control cases.  At the first column of a row of tiles both carried [1,1] cells are set to
  zero, read back, and the tile's two sums are added to them.  At a middle column the tile's two sums are added to
  what the cells held.  At the last column the same addition happens and each updated cell is then spread over a
  [1,8,128] output block.

  Every store and every load in the body addresses a whole block at offset zero.  So the last store into a block
  decides its contents, a load of a block just stored reads that store's value, and a load of an untouched block
  reads what the block held.  Each statement below is one such reading: the contents a case leaves equal the
  corresponding arithmetic term of the six loaded input blocks and of the carried cells.
-/

/-- The zero offset of a rank-2 block, as a function. -/
theorem pieces_off2 : (![0, 0] : Fin 2 → Nat) = fun _ => 0 := funext fun a => by fin_cases a <;> rfl

/-- The zero offset of a rank-3 block, as a function. -/
theorem pieces_off3 : (![0, 0, 0] : Fin 3 → Nat) = fun _ => 0 := funext fun a => by fin_cases a <;> rfl

section Pieces
variable {F : FTy → Type} [FloatOps F]

/-- First point of a row of tiles: the scratch is zeroed, read back, and the tile's sum added. -/
theorem sout_A_0 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S512x1 .f32) (x1 : Vec F S1x512 .f32) (x2 : Vec F S512x1 .i32) (x3 : Vec F S1x512 .i32) (x4 : Vec F S512x1 .i32) (x5 : Vec F S1x512 .i32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay8 x0 x1 x2 x3 x4 x5) (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) pieces_off2, View.readCov_unit_zero (S := S1x1) _ pieces_off2]
  simp only [View.readAt_eq_ld, harg2.read_unread, harg3.read_unread, harg4.read_unread, harg5.read_unread, harg6.read_unread, harg7.read_unread, View.ld_unit_zero (S := S1x1) pieces_off2, View.ld_unit_zero (S := S512x1) pieces_off2, View.ld_unit_zero (S := S1x512) pieces_off2, shapeCast_self]
theorem sout_A_1 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : cond0_0 i) (hc1 : ¬cond0_1 i)
    (x0 : Vec F S512x1 .f32) (x1 : Vec F S1x512 .f32) (x2 : Vec F S512x1 .i32) (x3 : Vec F S1x512 .i32) (x4 : Vec F S512x1 .i32) (x5 : Vec F S1x512 .i32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay9 x2 x3 x4 x5) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1x1) pieces_off2, View.readCov_unit_zero (S := S1x1) _ pieces_off2]
  simp only [View.readAt_eq_ld, harg2.read_unread, harg3.read_unread, harg4.read_unread, harg5.read_unread, harg6.read_unread, harg7.read_unread, View.ld_unit_zero (S := S1x1) pieces_off2, View.ld_unit_zero (S := S512x1) pieces_off2, View.ld_unit_zero (S := S1x512) pieces_off2, shapeCast_self]
/-- A middle point: the tile's sum is added to what the scratch held. -/
theorem sout_B_0 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero pieces_off2]
  simp only [View.readAt_eq_ld, harg2.read_unread, harg3.read_unread, harg4.read_unread, harg5.read_unread, harg6.read_unread, harg7.read_unread, harg10.read_unread, View.ld_unit_zero (S := S1x1) pieces_off2, View.ld_unit_zero (S := S512x1) pieces_off2, View.ld_unit_zero (S := S1x512) pieces_off2, shapeCast_self]
theorem sout_B_1 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : ¬cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x2 x3 x4 x5) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero pieces_off2]
  simp only [View.readAt_eq_ld, harg2.read_unread, harg3.read_unread, harg4.read_unread, harg5.read_unread, harg6.read_unread, harg7.read_unread, harg11.read_unread, View.ld_unit_zero (S := S1x1) pieces_off2, View.ld_unit_zero (S := S512x1) pieces_off2, View.ld_unit_zero (S := S1x512) pieces_off2, shapeCast_self]
/-- The last point of a row of tiles: the same, and the two output blocks are the updated scratch broadcast. -/
theorem sout_C_0 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero pieces_off2]
  simp only [View.readAt_eq_ld, harg2.read_unread, harg3.read_unread, harg4.read_unread, harg5.read_unread, harg6.read_unread, harg7.read_unread, harg10.read_unread, View.ld_unit_zero (S := S1x1) pieces_off2, View.ld_unit_zero (S := S512x1) pieces_off2, View.ld_unit_zero (S := S1x512) pieces_off2, shapeCast_self]
theorem sout_C_1 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay9 x2 x3 x4 x5) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero pieces_off2]
  simp only [View.readAt_eq_ld, harg2.read_unread, harg3.read_unread, harg4.read_unread, harg5.read_unread, harg6.read_unread, harg7.read_unread, harg11.read_unread, View.ld_unit_zero (S := S1x1) pieces_off2, View.ld_unit_zero (S := S512x1) pieces_off2, View.ld_unit_zero (S := S1x512) pieces_off2, shapeCast_self]
theorem out_C_6 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay1 (k0_pay8 x0 x1 x2 x3 x4 x5) xs0) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero pieces_off3, View.readCov_unit_zero (S := S1x1) _ pieces_off2]
  simp only [View.readAt_eq_ld, harg2.read_unread, harg3.read_unread, harg4.read_unread, harg5.read_unread, harg6.read_unread, harg7.read_unread, harg10.read_unread, View.ld_unit_zero (S := S1x1) pieces_off2, View.ld_unit_zero (S := S512x1) pieces_off2, View.ld_unit_zero (S := S1x512) pieces_off2, shapeCast_self]
theorem out_C_7 (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .i32) (harg6 : arg6.IsWhole) (arg7 : Memref sig .tc .vmem S1x512 .i32) (harg7 : arg7.IsWhole) (arg8 : Memref sig .tc .vmem S1x8x128 .f32) (harg8 : arg8.IsWhole) (arg9 : Memref sig .tc .vmem S1x8x128 .f32) (harg9 : arg9.IsWhole) (arg10 : Memref sig .tc .vmem S1x1 .f32) (harg10 : arg10.IsWhole) (arg11 : Memref sig .tc .vmem S1x1 .f32) (harg11 : arg11.IsWhole) (hc0 : ¬cond0_0 i) (hc1 : cond0_1 i)
    (x0 : Vec F S512x1 .f32) (x1 : Vec F S1x512 .f32) (x2 : Vec F S512x1 .i32) (x3 : Vec F S1x512 .i32) (x4 : Vec F S512x1 .i32) (x5 : Vec F S1x512 .i32) (xs0 xs1 : Vec F S1x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay2 (k0_pay9 x2 x3 x4 x5) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero pieces_off3, View.readCov_unit_zero (S := S1x1) _ pieces_off2]
  simp only [View.readAt_eq_ld, harg2.read_unread, harg3.read_unread, harg4.read_unread, harg5.read_unread, harg6.read_unread, harg7.read_unread, harg11.read_unread, View.ld_unit_zero (S := S1x1) pieces_off2, View.ld_unit_zero (S := S512x1) pieces_off2, View.ld_unit_zero (S := S1x512) pieces_off2, shapeCast_self]
end Pieces

end Cert.KernelIdeal.KV

end
-- ==== Proof.Payload.lean ====
import proofs.«117161_j48455821033938_1_alg».proof.Proof.KDefs
import Idealize.ShloMosaic.PureOps.Ideal.Laws
import Idealize.ShloMosaic.Lib.ValueLayout
import Idealize.ShloMosaic.Lib.Pipeline.Value

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

/-
  The values the tile program stores, read at one position over the extended reals.  A [512, 1] column spread over a
  [512, 512] square reads, at (r, q), the column's entry r; a [1, 512] row reads its entry q.  So the square of hinges
  at (r, q) is the squared hinge of the pair (column item r, row item q) where the pair is eligible and 0 elsewhere,
  and the square of eligibility bits widened and converted is the pair's count term.  Adding a [1, 512, 512] array over
  its two long axes into one number is the sum over all its positions, and the positions of such an array are the pairs
  (r, q); hence each tile total is the double sum over r and q of the per-pair terms.  The two zeroing values are 0, the
  two running updates add the tile total to what was held, and the output blocks repeat one number at every position.
-/

open Idealize.ShloMosaic.ValueIdx

section Layout

variable {α : Type}

/-- An [a, 1] column spread to [a, b] reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The positions of a [1, n1, n2] array are the pairs of its two long coordinates … -/
def idxEquiv3u {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ => exact Subsingleton.elim (α := Fin 1) _ _
    | ⟨1, _⟩ => rfl
    | ⟨2, _⟩ => rfl
  right_inv _ := rfl

/-- … so a sum over them is the double sum over the two coordinates. -/
theorem sum_idx3u {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3u (n1 := n1) (n2 := n2)).symm f, Fintype.sum_prod_type]
  rfl

end Layout

section Payload
/-- The zeroing stores write 0. -/
theorem pay5_apply (y : S1x1.Idx) : k0_pay5 (F := Ideal) y = 0 := by
  unfold k0_pay5
  rw [shapeCast_self]
  exact Ideal.ofBits_zero_f32
theorem pay6_apply (y : S1x1.Idx) : k0_pay6 (F := Ideal) y = 0 := by
  unfold k0_pay6
  rw [shapeCast_self]
  exact Ideal.ofBits_zero_f32
/-- The total's update: what the scratch held plus the tile's sum. -/
theorem pay1_apply (v36 : FVec Ideal S1x1 .f32) (v44 : Vec Ideal S1x1 .f32) (y : S1x1.Idx) :
    k0_pay1 v36 v44 y = v44 y + v36 y := by
  unfold k0_pay1
  rw [shapeCast_self]
  rfl

/-- The eligibility bit of the pair (column item r, row item q): same group and more units. -/
theorem pay7_apply (x2 : Vec Ideal S512x1 .i32) (x3 : Vec Ideal S1x512 .i32) (x4 : Vec Ideal S512x1 .i32)
    (x5 : Vec Ideal S1x512 .i32) (r q : Fin 512) :
    k0_pay7 x2 x3 x4 x5 (ix2 r q) = mbit2 (colf x2) (colf x4) (rowf x3) (rowf x5) r q := by
  have e2 : broadcastTo S512x512 x2 broadcasts_S512x1_S512x512 (ix2 r q) = colf x2 r :=
    broadcastTo_a1_ab_apply _ _ r q
  have e4 : broadcastTo S512x512 x4 broadcasts_S512x1_S512x512 (ix2 r q) = colf x4 r :=
    broadcastTo_a1_ab_apply _ _ r q
  have e3 : broadcastTo S512x512 x3 broadcasts_S1x512_S512x512 (ix2 r q) = rowf x3 q :=
    broadcastTo_1b_ab_apply _ _ r q
  have e5 : broadcastTo S512x512 x5 broadcasts_S1x512_S512x512 (ix2 r q) = rowf x5 q :=
    broadcastTo_1b_ab_apply _ _ r q
  unfold k0_pay7 mbit2
  rw [shapeCast_self, shapeCast_self, shapeCast_self, shapeCast_self, ← e2, ← e3, ← e4, ← e5]
  rfl

/-- One number taken out of a one-entry array viewed as [1, 1, 1] and repeated over [1, 1] is the array's one entry. -/
theorem scal_apply {α : Type} (v : S1.Idx → α) (y : S1x1.Idx) :
    broadcast S1x1 (extractAt ![0, 0, 0] (shapeCast S1x1x1 v shapeCasts_S1_S1x1x1) inpos_S1x1x1_p0_0_0) y
      = v (ix1 (0 : Fin 1)) := by
  show v _ = v _
  refine congrArg v (funext fun a => ?_)
  match a with
  | ⟨0, _⟩ => exact Subsingleton.elim (α := Fin 1) _ _

/-- A sum into one number of a [512, 512] square viewed as [1, 512, 512] is the double sum of the square's entries. -/
theorem total_apply (v : FVec Ideal S512x512 .f32) (j : S1.Idx) :
    multiReduction .add [1, 2] S1 (shapeCast S1x512x512 v shapeCasts_S512x512_S1x512x512) 0x00000000#32
        reduces_S1x512x512_S1 (.inl rfl) rfl j
      = ∑ r : Fin 512, ∑ q : Fin 512, v (ix2 r q) := by
  refine (Ideal.multiReduction_add_total _ _ _ (fun b => match b with | ⟨0, _⟩ => rfl) _ _ _).trans ?_
  rw [sum_idx3u]
  exact Finset.sum_congr rfl fun r _ => Finset.sum_congr rfl fun q _ => shapeCast_ab_1ab_apply _ _ 0 r q

/-- The count term of the pair (column item r, row item q): the eligibility bit widened and read as a number. -/
theorem pay9_apply (x2 : Vec Ideal S512x1 .i32) (x3 : Vec Ideal S1x512 .i32) (x4 : Vec Ideal S512x1 .i32)
    (x5 : Vec Ideal S1x512 .i32) (r q : Fin 512) :
    k0_pay9 x2 x3 x4 x5 (ix2 r q) = cnt2 (colf x2) (colf x4) (rowf x3) (rowf x5) r q := by
  unfold k0_pay9 cnt2
  rw [← pay7_apply]
  rfl

/-- The tile's sum of squared hinges, from the six blocks the point loads. -/
theorem pay8_apply (x0 : Vec Ideal S512x1 .f32) (x1 : Vec Ideal S1x512 .f32) (x2 : Vec Ideal S512x1 .i32) (x3 : Vec Ideal S1x512 .i32) (x4 : Vec Ideal S512x1 .i32) (x5 : Vec Ideal S1x512 .i32) (y : S1x1.Idx) :
    k0_pay8 x0 x1 x2 x3 x4 x5 y
      = ∑ r : Fin 512, ∑ q : Fin 512, viol2 (colf x0) (rowf x1) (colf x2) (colf x4) (rowf x3) (rowf x5) r q := by
  unfold k0_pay8
  refine (scal_apply _ y).trans ?_
  refine (total_apply _ _).trans ?_
  refine Finset.sum_congr rfl fun r _ => Finset.sum_congr rfl fun q _ => ?_
  have e0 : broadcastTo S512x512 x0 broadcasts_S512x1_S512x512 (ix2 r q) = colf x0 r :=
    broadcastTo_a1_ab_apply _ _ r q
  have e1 : broadcastTo S512x512 x1 broadcasts_S1x512_S512x512 (ix2 r q) = rowf x1 q :=
    broadcastTo_1b_ab_apply _ _ r q
  rw [select_apply, pay7_apply, mulf_apply, maximumf_apply, addf_apply, subf_apply, broadcast_apply, broadcast_apply,
    shapeCast_self, shapeCast_self, e0, e1]
  unfold viol2
  rw [← Ideal.ofBits_zero_f32]
  rfl

/-- The count's update: what the scratch held plus the number of eligible pairs of the tile. -/
theorem pay2_apply (x2 : Vec Ideal S512x1 .i32) (x3 : Vec Ideal S1x512 .i32) (x4 : Vec Ideal S512x1 .i32) (x5 : Vec Ideal S1x512 .i32)
    (v49 : Vec Ideal S1x1 .f32) (y : S1x1.Idx) :
    k0_pay2 (k0_pay9 x2 x3 x4 x5) v49 y
      = v49 y + ∑ r : Fin 512, ∑ q : Fin 512, cnt2 (colf x2) (colf x4) (rowf x3) (rowf x5) r q := by
  unfold k0_pay2
  refine (congrFun (shapeCast_self _ _) y).trans ?_
  refine (addf_apply _ _ y).trans ?_
  refine congrArg (v49 y + ·) (((scal_apply _ y).trans (total_apply _ _)).trans ?_)
  exact Finset.sum_congr rfl fun r _ => Finset.sum_congr rfl fun q _ => pay9_apply x2 x3 x4 x5 r q

/-- The output blocks: the one scratch entry at every position. -/
theorem pay3_apply (v57 : Vec Ideal S1x1 .f32) (y : S1x8x128.Idx) :
    k0_pay3 v57 y = v57 (ValueIdx.ix2 (0 : Fin 1) (0 : Fin 1)) := by
  obtain ⟨u, a, b, rfl⟩ : ∃ u a b, y = ix3 u a b := ⟨_, _, _, eq_ix3 y⟩
  unfold k0_pay3
  refine (shapeCast_ab_1ab_apply _ _ u a b).trans ?_
  refine (broadcastTo_apply _ _ (ix2 a b) (ix2 (0 : Fin 1) (0 : Fin 1)) fun ax => ?_).trans ?_
  · match ax with
    | ⟨0, _⟩ => rfl
    | ⟨1, _⟩ => rfl
  · rw [shapeCast_self]
theorem pay4_apply (v63 : Vec Ideal S1x1 .f32) (y : S1x8x128.Idx) :
    k0_pay4 v63 y = v63 (ValueIdx.ix2 (0 : Fin 1) (0 : Fin 1)) := by
  obtain ⟨u, a, b, rfl⟩ : ∃ u a b, y = ix3 u a b := ⟨_, _, _, eq_ix3 y⟩
  unfold k0_pay4
  refine (shapeCast_ab_1ab_apply _ _ u a b).trans ?_
  refine (broadcastTo_apply _ _ (ix2 a b) (ix2 (0 : Fin 1) (0 : Fin 1)) fun ax => ?_).trans ?_
  · match ax with
    | ⟨0, _⟩ => rfl
    | ⟨1, _⟩ => rfl
  · rw [shapeCast_self]

end Payload

end Cert.KernelIdeal.KV

end
-- ==== Proof.Blocks.lean ====
import proofs.«117161_j48455821033938_1_alg».proof.Proof.KDefs

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

/-
  Reading the six input blocks of a grid point back as the three argument arrays.

  Each argument array of 8192 items is presented twice, as an [8192, 1] column and as a [1, 8192] row (a reshape
  keeps row-major position, so entry (i, 0) of the column and entry (0, i) of the row are both item i).  On the
  16 × 16 grid, point t = 16 I + J reads block (I, 0) of each column and block (0, J) of each row, the blocks being
  [512, 1] and [1, 512].  Position r inside block I of a column is therefore item 512 I + r, and position q inside
  block J of a row is item 512 J + q.
-/

/-- The block indices over the grid: a column window reads block (t / 16, 0), a row window block (0, t % 16). -/
theorem idx_facts : ∀ t : Fin cfg0.N,
    (win0_0.index t 0 = t.val / 16 ∧ win0_0.index t 1 = 0 ∧ win0_1.index t 0 = 0 ∧ win0_1.index t 1 = t.val % 16)
    ∧ (win0_2.index t 0 = t.val / 16 ∧ win0_2.index t 1 = 0 ∧ win0_3.index t 0 = 0 ∧ win0_3.index t 1 = t.val % 16)
    ∧ (win0_4.index t 0 = t.val / 16 ∧ win0_4.index t 1 = 0 ∧ win0_5.index t 0 = 0 ∧ win0_5.index t 1 = t.val % 16) :=
  (by decide +kernel : ∀ t : Fin grid0.N, _)

section Blocks
variable (m : (ℓ : Loc nD τ sig) → Buf (Elt Ideal) ℓ)

/-- The column presentation of argument 0 when the grid starts: the argument reshaped to [8192, 1]. -/
theorem V_main_v0 (c : Dev nD) : (V m c main_v0 : S8192x1.Idx → EReal)
    = shapeCast S8192x1 (m ((c.tc : Thread nD τ).loc main_arg0)) shapeCasts_S8192_S8192x1 := by
  dsimp only [Gen.V, Gen.V0]
  simp only [Gen.hostOps0, List.flatten_cons, List.flatten_nil, List.append_nil, List.cons_append, List.nil_append]
  after_results
  rfl

/-- Its row presentation: the argument reshaped to [1, 8192]. -/
theorem V_main_v1 (c : Dev nD) : (V m c main_v1 : S1x8192.Idx → EReal)
    = shapeCast S1x8192 (m ((c.tc : Thread nD τ).loc main_arg0)) shapeCasts_S8192_S1x8192 := by
  dsimp only [Gen.V, Gen.V0]
  simp only [Gen.hostOps0, List.flatten_cons, List.flatten_nil, List.append_nil, List.cons_append, List.nil_append]
  after_results
  rfl

/-- The column presentation of argument 1 when the grid starts: the argument reshaped to [8192, 1]. -/
theorem V_main_v2 (c : Dev nD) : (V m c main_v2 : S8192x1.Idx → BitVec 32)
    = shapeCast S8192x1 (m ((c.tc : Thread nD τ).loc main_arg1)) shapeCasts_S8192_S8192x1 := by
  dsimp only [Gen.V, Gen.V0]
  simp only [Gen.hostOps0, List.flatten_cons, List.flatten_nil, List.append_nil, List.cons_append, List.nil_append]
  after_results
  rfl

/-- Its row presentation: the argument reshaped to [1, 8192]. -/
theorem V_main_v3 (c : Dev nD) : (V m c main_v3 : S1x8192.Idx → BitVec 32)
    = shapeCast S1x8192 (m ((c.tc : Thread nD τ).loc main_arg1)) shapeCasts_S8192_S1x8192 := by
  dsimp only [Gen.V, Gen.V0]
  simp only [Gen.hostOps0, List.flatten_cons, List.flatten_nil, List.append_nil, List.cons_append, List.nil_append]
  after_results
  rfl

/-- The column presentation of argument 2 when the grid starts: the argument reshaped to [8192, 1]. -/
theorem V_main_v4 (c : Dev nD) : (V m c main_v4 : S8192x1.Idx → BitVec 32)
    = shapeCast S8192x1 (m ((c.tc : Thread nD τ).loc main_arg2)) shapeCasts_S8192_S8192x1 := by
  dsimp only [Gen.V, Gen.V0]
  simp only [Gen.hostOps0, List.flatten_cons, List.flatten_nil, List.append_nil, List.cons_append, List.nil_append]
  after_results
  rfl

/-- Its row presentation: the argument reshaped to [1, 8192]. -/
theorem V_main_v5 (c : Dev nD) : (V m c main_v5 : S1x8192.Idx → BitVec 32)
    = shapeCast S1x8192 (m ((c.tc : Thread nD τ).loc main_arg2)) shapeCasts_S8192_S1x8192 := by
  dsimp only [Gen.V, Gen.V0]
  simp only [Gen.hostOps0, List.flatten_cons, List.flatten_nil, List.append_nil, List.cons_append, List.nil_append]
  after_results
  rfl

/-- The six input blocks of grid point `t`: rows `512 (t / 16) + r` and columns `512 (t % 16) + q` of the three argument arrays. -/
theorem col_pred (c : Dev nD) (t : Fin cfg0.N) :
    colf (iblk m c 0 t : Vec Ideal S512x1 .f32) = fun r => pred m c (bi (tI t) r) := by
  funext r
  unfold colf iblk
  rw [View.read_apply]
  show (V m c main_v0 : S8192x1.Idx → EReal) _ = _
  rw [V_main_v0]
  unfold pred
  refine shapeCast_apply _ _ _ (ValueIdx.ix1 (bi (tI t) r)) ?_
  rw [Shape.rowMajor_val_one, Shape.rowMajor_val_two]
  show 512 * (t.val / 16) + r.val = (win0_0.index t 0 * 512 + 1 * r.val) * 1 + (win0_0.index t 1 * 1 + 1 * 0)
  obtain ⟨⟨h0, h1, h2, h3⟩, -, -⟩ := idx_facts t
  rw [h0, h1]
  omega
theorem row_pred (c : Dev nD) (t : Fin cfg0.N) :
    rowf (iblk m c 1 t : Vec Ideal S1x512 .f32) = fun q => pred m c (bi (tJ t) q) := by
  funext q
  unfold rowf iblk
  rw [View.read_apply]
  show (V m c main_v1 : S1x8192.Idx → EReal) _ = _
  rw [V_main_v1]
  unfold pred
  refine shapeCast_apply _ _ _ (ValueIdx.ix1 (bi (tJ t) q)) ?_
  rw [Shape.rowMajor_val_one, Shape.rowMajor_val_two]
  show 512 * (t.val % 16) + q.val = (win0_1.index t 0 * 1 + 1 * 0) * 8192 + (win0_1.index t 1 * 512 + 1 * q.val)
  obtain ⟨⟨h0, h1, h2, h3⟩, -, -⟩ := idx_facts t
  rw [h2, h3]
  omega
theorem col_gal (c : Dev nD) (t : Fin cfg0.N) :
    colf (iblk m c 2 t : Vec Ideal S512x1 .i32) = fun r => gal m c (bi (tI t) r) := by
  funext r
  unfold colf iblk
  rw [View.read_apply]
  show (V m c main_v2 : S8192x1.Idx → BitVec 32) _ = _
  rw [V_main_v2]
  unfold gal
  refine shapeCast_apply _ _ _ (ValueIdx.ix1 (bi (tI t) r)) ?_
  rw [Shape.rowMajor_val_one, Shape.rowMajor_val_two]
  show 512 * (t.val / 16) + r.val = (win0_2.index t 0 * 512 + 1 * r.val) * 1 + (win0_2.index t 1 * 1 + 1 * 0)
  obtain ⟨-, ⟨h0, h1, h2, h3⟩, -⟩ := idx_facts t
  rw [h0, h1]
  omega
theorem row_gal (c : Dev nD) (t : Fin cfg0.N) :
    rowf (iblk m c 3 t : Vec Ideal S1x512 .i32) = fun q => gal m c (bi (tJ t) q) := by
  funext q
  unfold rowf iblk
  rw [View.read_apply]
  show (V m c main_v3 : S1x8192.Idx → BitVec 32) _ = _
  rw [V_main_v3]
  unfold gal
  refine shapeCast_apply _ _ _ (ValueIdx.ix1 (bi (tJ t) q)) ?_
  rw [Shape.rowMajor_val_one, Shape.rowMajor_val_two]
  show 512 * (t.val % 16) + q.val = (win0_3.index t 0 * 1 + 1 * 0) * 8192 + (win0_3.index t 1 * 512 + 1 * q.val)
  obtain ⟨-, ⟨h0, h1, h2, h3⟩, -⟩ := idx_facts t
  rw [h2, h3]
  omega
theorem col_grp (c : Dev nD) (t : Fin cfg0.N) :
    colf (iblk m c 4 t : Vec Ideal S512x1 .i32) = fun r => grp m c (bi (tI t) r) := by
  funext r
  unfold colf iblk
  rw [View.read_apply]
  show (V m c main_v4 : S8192x1.Idx → BitVec 32) _ = _
  rw [V_main_v4]
  unfold grp
  refine shapeCast_apply _ _ _ (ValueIdx.ix1 (bi (tI t) r)) ?_
  rw [Shape.rowMajor_val_one, Shape.rowMajor_val_two]
  show 512 * (t.val / 16) + r.val = (win0_4.index t 0 * 512 + 1 * r.val) * 1 + (win0_4.index t 1 * 1 + 1 * 0)
  obtain ⟨-, -, ⟨h0, h1, h2, h3⟩⟩ := idx_facts t
  rw [h0, h1]
  omega
theorem row_grp (c : Dev nD) (t : Fin cfg0.N) :
    rowf (iblk m c 5 t : Vec Ideal S1x512 .i32) = fun q => grp m c (bi (tJ t) q) := by
  funext q
  unfold rowf iblk
  rw [View.read_apply]
  show (V m c main_v5 : S1x8192.Idx → BitVec 32) _ = _
  rw [V_main_v5]
  unfold grp
  refine shapeCast_apply _ _ _ (ValueIdx.ix1 (bi (tJ t) q)) ?_
  rw [Shape.rowMajor_val_one, Shape.rowMajor_val_two]
  show 512 * (t.val % 16) + q.val = (win0_5.index t 0 * 1 + 1 * 0) * 8192 + (win0_5.index t 1 * 512 + 1 * q.val)
  obtain ⟨-, -, ⟨h0, h1, h2, h3⟩⟩ := idx_facts t
  rw [h2, h3]
  omega
end Blocks

end Cert.KernelIdeal.KV
end
-- ==== Proof.Chain.lean ====
/-
  What the two carried scratch buffers hold after each grid point, and so what the two result arrays end holding.

  Along a row of tiles the body keeps two running values: it resets them to 0 at the first tile of the row, adds the
  tile's sum of squared hinges (respectively the tile's number of eligible pairs) at every tile, and at the last tile
  writes both out.  So after the `J`-th tile of row `I` the total scratch holds the sum of the first `J + 1` tile sums
  of that row (induction on the grid point, three cases), and the block written at the end of row `I` holds, at every
  position, the sum over the whole row of tiles.  The blocks written at the 16 row ends tile the result arrays.
-/
import proofs.«117161_j48455821033938_1_alg».proof.Proof.Pieces
import proofs.«117161_j48455821033938_1_alg».proof.Proof.Payload
import proofs.«117161_j48455821033938_1_alg».proof.Proof.Blocks

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

variable (m : (ℓ : Loc nD τ sig) → Buf (Elt Ideal) ℓ)

/-- The squared hinges over the launch arrays. -/
abbrev fV (c : Dev nD) : Fin 8192 → Fin 8192 → EReal := viol (pred m c) (gal m c) (grp m c)
/-- The 0/1 eligibility terms over the launch arrays. -/
abbrev fC (c : Dev nD) : Fin 8192 → Fin 8192 → EReal := cnt (gal m c) (grp m c)

/-- The hinge sum the body computes at grid point `t` is the sum of `fV` over the tile `(t / 16, t % 16)`. -/
theorem tile_V (c : Dev nD) (t : Fin cfg0.N) (y : S1x1.Idx) :
    k0_pay8 (F := Ideal) (iblk m c 0 t) (iblk m c 1 t) (iblk m c 2 t) (iblk m c 3 t) (iblk m c 4 t) (iblk m c 5 t) y
      = blockSum (fV m c) (tI t) (tJ t) := by
  refine (pay8_apply _ _ _ _ _ _ y).trans ?_
  rw [col_pred, row_pred, col_gal, col_grp, row_gal, row_grp]
  rfl

/-- The count update at grid point `t` adds the sum of `fC` over the same tile. -/
theorem tile_C (c : Dev nD) (t : Fin cfg0.N) (v : Vec Ideal S1x1 .f32) (y : S1x1.Idx) :
    k0_pay2 (F := Ideal) (k0_pay9 (iblk m c 2 t) (iblk m c 3 t) (iblk m c 4 t) (iblk m c 5 t)) v y
      = v y + blockSum (fC m c) (tI t) (tJ t) := by
  refine (pay2_apply _ _ _ _ v y).trans ?_
  rw [col_gal, col_grp, row_gal, row_grp]
  rfl

/-! ## One grid point -/

/-- At the first tile of a row the total scratch is left at the tile's sum (it was zeroed first). -/
theorem s0_A (c : Dev nD) (t : Fin cfg0.N) (h0 : t.val % 16 = 0) (h1 : ¬t.val % 16 = 15) :
    (outsAt0 m c t.val t.isLt).2.2.1 = fun _ => blockSum (fV m c) (tI t) (tJ t) := by
  rw [outsAt0_A m c t h0 h1]
  dsimp only
  refine (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).trans ?_
  funext y
  refine (pay1_apply _ _ y).trans ?_
  rw [pay5_apply, zero_add]
  exact tile_V m c t y

/-- Likewise the count scratch. -/
theorem s1_A (c : Dev nD) (t : Fin cfg0.N) (h0 : t.val % 16 = 0) (h1 : ¬t.val % 16 = 15) :
    (outsAt0 m c t.val t.isLt).2.2.2 = fun _ => blockSum (fC m c) (tI t) (tJ t) := by
  rw [outsAt0_A m c t h0 h1]
  dsimp only
  refine (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)).trans ?_
  funext y
  refine (tile_C m c t _ y).trans ?_
  rw [pay6_apply, zero_add]

/-- At a middle tile the total scratch gains the tile's sum. -/
theorem s0_B (c : Dev nD) (t : Fin cfg0.N) (h0 : ¬t.val % 16 = 0) (h1 : ¬t.val % 16 = 15) :
    (outsAt0 m c t.val t.isLt).2.2.1
      = fun y => (outsAt0 m c (t.val - 1) (Nat.lt_of_le_of_lt (Nat.sub_le _ _) t.isLt)).2.2.1 y + blockSum (fV m c) (tI t) (tJ t) := by
  rw [outsAt0_B m c t h0 h1]
  dsimp only
  refine (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  refine (pay1_apply _ _ y).trans ?_
  exact congrArg (fun z => (outsAt0 m c (t.val - 1) (Nat.lt_of_le_of_lt (Nat.sub_le _ _) t.isLt)).2.2.1 y + z) (tile_V m c t y)

theorem s1_B (c : Dev nD) (t : Fin cfg0.N) (h0 : ¬t.val % 16 = 0) (h1 : ¬t.val % 16 = 15) :
    (outsAt0 m c t.val t.isLt).2.2.2
      = fun y => (outsAt0 m c (t.val - 1) (Nat.lt_of_le_of_lt (Nat.sub_le _ _) t.isLt)).2.2.2 y + blockSum (fC m c) (tI t) (tJ t) := by
  rw [outsAt0_B m c t h0 h1]
  dsimp only
  refine (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  exact tile_C m c t _ y

/-- At the last tile of a row too; -/
theorem s0_C (c : Dev nD) (t : Fin cfg0.N) (h0 : ¬t.val % 16 = 0) (h1 : t.val % 16 = 15) :
    (outsAt0 m c t.val t.isLt).2.2.1
      = fun y => (outsAt0 m c (t.val - 1) (Nat.lt_of_le_of_lt (Nat.sub_le _ _) t.isLt)).2.2.1 y + blockSum (fV m c) (tI t) (tJ t) := by
  rw [outsAt0_C m c t h0 h1]
  dsimp only
  refine (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  refine (pay1_apply _ _ y).trans ?_
  exact congrArg (fun z => (outsAt0 m c (t.val - 1) (Nat.lt_of_le_of_lt (Nat.sub_le _ _) t.isLt)).2.2.1 y + z) (tile_V m c t y)

theorem s1_C (c : Dev nD) (t : Fin cfg0.N) (h0 : ¬t.val % 16 = 0) (h1 : t.val % 16 = 15) :
    (outsAt0 m c t.val t.isLt).2.2.2
      = fun y => (outsAt0 m c (t.val - 1) (Nat.lt_of_le_of_lt (Nat.sub_le _ _) t.isLt)).2.2.2 y + blockSum (fC m c) (tI t) (tJ t) := by
  rw [outsAt0_C m c t h0 h1]
  dsimp only
  refine (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  exact tile_C m c t _ y

/-- and there the two output blocks are the updated scratch values at every position. -/
theorem o6_C (c : Dev nD) (t : Fin cfg0.N) (h0 : ¬t.val % 16 = 0) (h1 : t.val % 16 = 15) :
    (outsAt0 m c t.val t.isLt).1
      = fun _ => (outsAt0 m c (t.val - 1) (Nat.lt_of_le_of_lt (Nat.sub_le _ _) t.isLt)).2.2.1 (ValueIdx.ix2 (0 : Fin 1) (0 : Fin 1)) + blockSum (fV m c) (tI t) (tJ t) := by
  rw [outsAt0_C m c t h0 h1]
  dsimp only
  refine (out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  refine (pay3_apply _ y).trans ?_
  refine (pay1_apply _ _ _).trans ?_
  exact congrArg (fun z => (outsAt0 m c (t.val - 1) (Nat.lt_of_le_of_lt (Nat.sub_le _ _) t.isLt)).2.2.1 (ValueIdx.ix2 (0 : Fin 1) (0 : Fin 1)) + z) (tile_V m c t _)

theorem o7_C (c : Dev nD) (t : Fin cfg0.N) (h0 : ¬t.val % 16 = 0) (h1 : t.val % 16 = 15) :
    (outsAt0 m c t.val t.isLt).2.1
      = fun _ => (outsAt0 m c (t.val - 1) (Nat.lt_of_le_of_lt (Nat.sub_le _ _) t.isLt)).2.2.2 (ValueIdx.ix2 (0 : Fin 1) (0 : Fin 1)) + blockSum (fC m c) (tI t) (tJ t) := by
  rw [outsAt0_C m c t h0 h1]
  dsimp only
  refine (out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  funext y
  refine (pay4_apply _ y).trans ?_
  exact tile_C m c t _ _

/-! ## The running sums -/

/-- The tile sum of `f` at grid point number `n` (0 beyond the grid). -/
def gN (f : Fin 8192 → Fin 8192 → EReal) (n : ℕ) : EReal :=
  if h : n < cfg0.N then blockSum f (tI ⟨n, h⟩) (tJ ⟨n, h⟩) else 0

theorem gN_val (f : Fin 8192 → Fin 8192 → EReal) (t : Fin cfg0.N) : gN f t.val = blockSum f (tI t) (tJ t) := by
  unfold gN; rw [dif_pos t.isLt]

/-- The sum of the tile sums of the row of tiles that point `n` is in, from the row's first tile up to point `n`. -/
def accN (f : Fin 8192 → Fin 8192 → EReal) (n : ℕ) : EReal :=
  ∑ k ∈ Finset.range (n % 16 + 1), gN f (n - n % 16 + k)

theorem accN_first (f : Fin 8192 → Fin 8192 → EReal) (n : ℕ) (h : n % 16 = 0) : accN f n = gN f n := by
  unfold accN
  rw [h, Finset.sum_range_one]
  rfl

theorem accN_next (f : Fin 8192 → Fin 8192 → EReal) (n : ℕ) (h : ¬(n + 1) % 16 = 0) :
    accN f (n + 1) = accN f n + gN f (n + 1) := by
  have h1 : (n + 1) % 16 = n % 16 + 1 := by omega
  have h2 : n + 1 - (n % 16 + 1) = n - n % 16 := by omega
  have h3 : n - n % 16 + (n % 16 + 1) = n + 1 := by omega
  unfold accN
  rw [h1, h2, Finset.sum_range_succ _ (n % 16 + 1), h3]

/-- THE INVARIANT: after grid point `n` the two scratch buffers hold the running sums of the tile sums of `fV` and of
    `fC` along the row of tiles so far. -/
theorem scratch_eq (c : Dev nD) : ∀ (n : ℕ) (hn : n < cfg0.N),
    (outsAt0 m c n hn).2.2.1 = (fun _ => accN (fV m c) n) ∧ (outsAt0 m c n hn).2.2.2 = (fun _ => accN (fC m c) n)
  | 0, hn => by
    have hA0 := s0_A m c ⟨0, hn⟩ (Nat.zero_mod _) (fun h => by have h' : (0 : ℕ) % 16 = 15 := h; omega)
    have hA1 := s1_A m c ⟨0, hn⟩ (Nat.zero_mod _) (fun h => by have h' : (0 : ℕ) % 16 = 15 := h; omega)
    refine ⟨hA0.trans ?_, hA1.trans ?_⟩
    · funext _; rw [accN_first _ 0 (Nat.zero_mod _)]; exact (gN_val _ ⟨0, hn⟩).symm
    · funext _; rw [accN_first _ 0 (Nat.zero_mod _)]; exact (gN_val _ ⟨0, hn⟩).symm
  | n + 1, hn => by
    have ih := scratch_eq c n (Nat.lt_of_succ_lt hn)
    by_cases h0 : (n + 1) % 16 = 0
    · have h1 : ¬(n + 1) % 16 = 15 := by omega
      have hA0 := s0_A m c ⟨n + 1, hn⟩ h0 h1
      have hA1 := s1_A m c ⟨n + 1, hn⟩ h0 h1
      refine ⟨hA0.trans ?_, hA1.trans ?_⟩
      · funext _; rw [accN_first _ (n + 1) h0]; exact (gN_val _ ⟨n + 1, hn⟩).symm
      · funext _; rw [accN_first _ (n + 1) h0]; exact (gN_val _ ⟨n + 1, hn⟩).symm
    · by_cases h1 : (n + 1) % 16 = 15
      · have hC0 := s0_C m c ⟨n + 1, hn⟩ h0 h1
        have hC1 := s1_C m c ⟨n + 1, hn⟩ h0 h1
        refine ⟨hC0.trans ?_, hC1.trans ?_⟩
        · funext y
          show (outsAt0 m c n _).2.2.1 y + _ = _
          rw [ih.1, accN_next _ n h0]; exact congrArg _ (gN_val _ ⟨n + 1, hn⟩).symm
        · funext y
          show (outsAt0 m c n _).2.2.2 y + _ = _
          rw [ih.2, accN_next _ n h0]; exact congrArg _ (gN_val _ ⟨n + 1, hn⟩).symm
      · have hB0 := s0_B m c ⟨n + 1, hn⟩ h0 h1
        have hB1 := s1_B m c ⟨n + 1, hn⟩ h0 h1
        refine ⟨hB0.trans ?_, hB1.trans ?_⟩
        · funext y
          show (outsAt0 m c n _).2.2.1 y + _ = _
          rw [ih.1, accN_next _ n h0]; exact congrArg _ (gN_val _ ⟨n + 1, hn⟩).symm
        · funext y
          show (outsAt0 m c n _).2.2.2 y + _ = _
          rw [ih.2, accN_next _ n h0]; exact congrArg _ (gN_val _ ⟨n + 1, hn⟩).symm

/-- At the last tile of row `I` the running sum is the sum over the whole row of tiles. -/
theorem accN_last (f : Fin 8192 → Fin 8192 → EReal) (t : Fin cfg0.N) (h1 : t.val % 16 = 15) :
    accN f t.val = rowSum f (tI t) := by
  have hN : cfg0.N = 256 := N_0
  have ht : t.val < 256 := lt_of_lt_of_eq t.isLt hN
  unfold accN rowSum
  rw [h1, Finset.sum_range]
  refine Finset.sum_congr rfl fun J _ => ?_
  have hJ : J.val < 16 := J.isLt
  have hlt : t.val - 15 + J.val < cfg0.N := lt_of_lt_of_eq (by omega : t.val - 15 + J.val < 256) hN.symm
  unfold gN
  rw [dif_pos hlt]
  have eI : tI ⟨t.val - 15 + J.val, hlt⟩ = tI t := Fin.ext (by show (t.val - 15 + J.val) / 16 = t.val / 16; omega)
  have eJ : tJ ⟨t.val - 15 + J.val, hlt⟩ = J := Fin.ext (by show (t.val - 15 + J.val) % 16 = J.val; omega)
  rw [eI, eJ]

/-- What the two output blocks hold when they are written back (the last tile of a row): the row's sums, at every position. -/
theorem out6_last (c : Dev nD) (t : Fin cfg0.N) (h1 : t.val % 16 = 15) :
    (outsAt0 m c t.val t.isLt).1 = fun _ => rowSum (fV m c) (tI t) := by
  have h0 : ¬t.val % 16 = 0 := by omega
  have hs := (scratch_eq m c t.val t.isLt).1
  rw [s0_C m c t h0 h1] at hs
  rw [o6_C m c t h0 h1]
  funext y
  exact (congrFun hs (ValueIdx.ix2 (0 : Fin 1) (0 : Fin 1))).trans (accN_last _ t h1)

theorem out7_last (c : Dev nD) (t : Fin cfg0.N) (h1 : t.val % 16 = 15) :
    (outsAt0 m c t.val t.isLt).2.1 = fun _ => rowSum (fC m c) (tI t) := by
  have h0 : ¬t.val % 16 = 0 := by omega
  have hs := (scratch_eq m c t.val t.isLt).2
  rw [s1_C m c t h0 h1] at hs
  rw [o7_C m c t h0 h1]
  funext y
  exact (congrFun hs (ValueIdx.ix2 (0 : Fin 1) (0 : Fin 1))).trans (accN_last _ t h1)

end Cert.KernelIdeal.KV

end
-- ==== Proof.Tail.lean ====
import proofs.«117161_j48455821033938_1_alg».proof.Proof.KDefs
import Idealize.ShloMosaic.PureOps.Ideal.Laws
import Idealize.ShloMosaic.Lib.StableHlo.Run
import Idealize.ShloMosaic.Lib.Pipeline.Value

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

/-! After the grid has run, the host reads entry (I, 0, 0) of each of the two result arrays for the 16 rows of tiles,
    adds the 16 entries of each (starting from the word 0, which is the number 0), and forms
    `total / max count 1` where `count > 0`, else `0` (the word 0x3F800000 is the number 1). Read at the one index of
    the rank-0 result this is `combine` of the two 16-term sums. -/

/-- Positions of a vector of length `n` are its indices. -/
private def idx1Equiv (n : Nat) : (⟨1, ![n]⟩ : Shape).Idx ≃ Fin n where
  toFun j := j 0
  invFun := ValueIdx.ix1
  left_inv j := (ValueIdx.eq_ix1 j).symm
  right_inv _ := rfl

/-- The binary32 word 0x3F800000 is the number one. -/
private theorem ofBits_one_f32 : Ideal.ofBits .f32 0x3F800000#32 = 1 := by simp [Ideal.ofBits, Ideal.ieee, -EReal.coe_mul]; norm_num

/-- Entry `I` of the [16] vector cut out of a [16, 8, 128] array is the array's entry (I, 0, 0). -/
private theorem cut_apply (x : S16x8x128.Idx → EReal) (I : Fin 16) :
    shapeCast S16 (extractStridedSlice S16x1x1 ![0, 0, 0] x slices_S16x8x128_S16x1x1_0_0_0) shapeCasts_S16x1x1_S16
        (ValueIdx.ix1 I) = x (ValueIdx.ix3 I (0 : Fin 8) (0 : Fin 128)) := by
  rw [shapeCast_apply _ shapeCasts_S16x1x1_S16 (ValueIdx.ix1 I) (ValueIdx.ix3 I (0 : Fin 1) (0 : Fin 1)) (by
    rw [Shape.rowMajor_val_one, Shape.rowMajor_val_three]; simp)]
  exact extractStridedSlice_apply _ x slices_S16x8x128_S16x1x1_0_0_0 _ _ (fun a => by
    fin_cases a <;> simp)

/-- The host's sum of the 16 cut-out entries, from the word 0: the sum of the entries (I, 0, 0). -/
private theorem rows_sum (x : S16x8x128.Idx → EReal) (i : S_.Idx) :
    Host.reduceAdd (F := Ideal) (φ := .f32)
        (fun k => shapeCast S16 (extractStridedSlice S16x1x1 ![0, 0, 0] x slices_S16x8x128_S16x1x1_0_0_0) shapeCasts_S16x1x1_S16 k)
        (constant S_ .f32 0x00000000#32) reducesTo_S16_S_d0 h_S_ i
      = ∑ I : Fin 16, x (ValueIdx.ix3 I (0 : Fin 8) (0 : Fin 128)) := by
  simp only [Host.reduceAdd, Ideal.hostReduceAdd_def]
  rw [Ideal.hostReduceAdd_total reducesTo_S16_S_d0 (fun b => b.elim0) _ _ i]
  rw [ValueIdx.constant_apply, Ideal.ofBits_zero_f32, zero_add]
  refine Fintype.sum_equiv (idx1Equiv 16) _ _ fun k => ?_
  rw [ValueIdx.eq_ix1 k]
  exact cut_apply x (k 0)

/-- The host operations after the region as one function of the two result arrays, at the result's one index. -/
private theorem tail_fn (x6 x7 : S16x8x128.Idx → EReal) (i : S_.Idx) :
    select (α := EReal)
        (cmpf (F := Ideal) (φ := .f32) .ogt
          (Host.reduceAdd (F := Ideal) (φ := .f32)
            (fun k => shapeCast S16 (extractStridedSlice S16x1x1 ![0, 0, 0] x7 slices_S16x8x128_S16x1x1_0_0_0) shapeCasts_S16x1x1_S16 k)
            (constant S_ .f32 0x00000000#32) reducesTo_S16_S_d0 h_S_)
          (constant S_ .f32 0x00000000#32))
        (Host.divf (F := Ideal) (φ := .f32)
          (Host.reduceAdd (F := Ideal) (φ := .f32)
            (fun k => shapeCast S16 (extractStridedSlice S16x1x1 ![0, 0, 0] x6 slices_S16x8x128_S16x1x1_0_0_0) shapeCasts_S16x1x1_S16 k)
            (constant S_ .f32 0x00000000#32) reducesTo_S16_S_d0 h_S_)
          (maximumf (F := Ideal) (φ := .f32)
            (Host.reduceAdd (F := Ideal) (φ := .f32)
              (fun k => shapeCast S16 (extractStridedSlice S16x1x1 ![0, 0, 0] x7 slices_S16x8x128_S16x1x1_0_0_0) shapeCasts_S16x1x1_S16 k)
              (constant S_ .f32 0x00000000#32) reducesTo_S16_S_d0 h_S_)
            (constant S_ .f32 0x3F800000#32)))
        (constant (F := Ideal) S_ .f32 0x00000000#32) i
      = combine (∑ I : Fin 16, x6 (ValueIdx.ix3 I (0 : Fin 8) (0 : Fin 128)))
          (∑ I : Fin 16, x7 (ValueIdx.ix3 I (0 : Fin 8) (0 : Fin 128))) := by
  have h6 := rows_sum x6 i
  have h7 := rows_sum x7 i
  show Scalar.select (Ideal.cmp .ogt _ (Ideal.ofBits .f32 0x00000000#32))
      (Ideal.div _ (max _ (Ideal.ofBits .f32 0x3F800000#32))) (Ideal.ofBits .f32 0x00000000#32) = _
  rw [h6, h7, Ideal.ofBits_zero_f32, ofBits_one_f32]
  rfl

section Tail
variable (m : (ℓ : Loc nD τ sig) → Buf (Elt Ideal) ℓ)

set_option maxHeartbeats 400000 in
/-- The operations after the region: entry (I, 0, 0) of each of the two result arrays summed over the 16 rows of tiles,
    then total / max count 1 where count > 0, else 0. -/
theorem tail_result (c : Dev nD) :
    Pipeline.afterTail₀ cfgs (dats m) 0 (V0 m) [hostOps1, hostOps1_1] c main_v16
      = fun _ => combine
          (∑ I : Fin 16, ((dats m 0 c).arrAt 6 cfg0.N : S16x8x128.Idx → EReal) (ValueIdx.ix3 I (0 : Fin 8) (0 : Fin 128)))
          (∑ I : Fin 16, ((dats m 0 c).arrAt 7 cfg0.N : S16x8x128.Idx → EReal) (ValueIdx.ix3 I (0 : Fin 8) (0 : Fin 128))) := by
  unfold Pipeline.afterTail₀
  simp only [hostOps1, hostOps1_1, List.flatten_cons, List.flatten_nil, List.append_nil, List.cons_append, List.nil_append]
  have e6 := Pipeline.withArrays_arr (cfgs 0).spec launch0.win.arr_inj c (V0 m c) (fun w => (dats m 0 c).arrAt w (cfgs 0).N) 6
  have e7 := Pipeline.withArrays_arr (cfgs 0).spec launch0.win.arr_inj c (V0 m c) (fun w => (dats m 0 c).arrAt w (cfgs 0).N) 7
  generalize Pipeline.withArrays (cfgs 0).spec c (V0 m c) (fun w => (dats m 0 c).arrAt w (cfgs 0).N) = W at e6 e7 ⊢
  after_results_simp
  funext i
  have e6' : W (Proc.devRef .tc main_v6_0) = (dats m 0 c).arrAt 6 cfg0.N := e6
  have e7' : W (Proc.devRef .tc main_v6_1) = (dats m 0 c).arrAt 7 cfg0.N := e7
  rw [← e6', ← e7']
  simp only [StableHlo.TRef.toBuf, StableHlo.TRef.ofBuf, cast_eq]
  exact tail_fn (W (Proc.devRef .tc main_v6_0)) (W (Proc.devRef .tc main_v6_1)) i
end Tail

end Cert.KernelIdeal.KV

end
-- ==== Proof.Final.lean ====
/-
  The two result arrays of the tiled program after its run, and the run itself read back.

  Result array 6 (respectively 7) has one [1, 8, 128] block per row of tiles, written once, after the row's last tile,
  with the row's sum of squared hinges (respectively of eligible pairs) at every position; the 16 blocks tile the
  [16, 8, 128] array, so entry (I, a, b) is the sum over row I of tiles.  The operations after the region add entry
  (I, 0, 0) over the 16 rows: the tile-by-tile total and count, combined into the loss.
-/
import proofs.«117161_j48455821033938_1_alg».proof.Proof.Chain
import proofs.«117161_j48455821033938_1_alg».proof.Proof.Tail

noncomputable section

namespace Cert.KernelIdeal.KV

open Idealize.ShloMosaic Idealize.ShloMosaic.TcCoe Idealize.SL.Sem
open Idealize.ShloMosaic.Pipeline (Dat)
open Cert.KernelIdeal Cert.KernelIdeal.Gen
open Cert.Mono

variable (m : (ℓ : Loc nD τ sig) → Buf (Elt Ideal) ℓ) (ρ : Dev nD → PrngReg)

/-- The two output windows' block index at grid point `t` is `(t / 16, 0, 0)`: decided once over the grid. -/
theorem idx_out : ∀ t : Fin cfg0.N, win0_6.index t (0 : Fin 3) = t.val / 16 ∧ win0_6.index t (1 : Fin 3) = 0
    ∧ win0_6.index t (2 : Fin 3) = 0 ∧ win0_7.index t (0 : Fin 3) = t.val / 16 ∧ win0_7.index t (1 : Fin 3) = 0
    ∧ win0_7.index t (2 : Fin 3) = 0 :=
  (by decide +kernel : ∀ t : Fin grid0.N, _)

/-- Entry `(I, a, b)` of the first result array: the sum of squared hinges over row `I` of tiles. -/
def G6 (c : Dev nD) : Buf (Elt Ideal) ((c : Thread nD τ).loc main_v6_0) := fun y => rowSum (fV m c) (y 0)
/-- Entry `(I, a, b)` of the second: the number of eligible pairs in row `I` of tiles. -/
def G7 (c : Dev nD) : Buf (Elt Ideal) ((c : Thread nD τ).loc main_v6_1) := fun y => rowSum (fC m c) (y 0)

/-- A block holding one value `R` at every position, written back at grid point `t`, is block `t` of any array whose
    entry `(I, a, b)` is `g I`, provided `R = g (t / 16)`: the block's first coordinate is `t / 16`. -/
theorem const_block6 (t : Fin cfg0.N) (R : EReal) (g : Fin 16 → EReal) (hR : R = g (tI t)) :
    (cfg0.win 6).cut (grid0.coords t) (fun _ => R)
      = ((cfg0.win 6).blk t).view.read (Elt Ideal) (fun y : S16x8x128.Idx => g (y 0)) := by
  funext j
  show R = g ((((cfg0.win 6).blk t).view.emb j) 0)
  rw [hR]
  refine congrArg g (Fin.ext ?_)
  show t.val / 16 = win0_6.index t (0 : Fin 3) * 1 + 1 * (j 0).val
  have hj : (j 0).val < 1 := (j 0).isLt
  rw [(idx_out t).1]; omega

theorem const_block7 (t : Fin cfg0.N) (R : EReal) (g : Fin 16 → EReal) (hR : R = g (tI t)) :
    (cfg0.win 7).cut (grid0.coords t) (fun _ => R)
      = ((cfg0.win 7).blk t).view.read (Elt Ideal) (fun y : S16x8x128.Idx => g (y 0)) := by
  funext j
  show R = g ((((cfg0.win 7).blk t).view.emb j) 0)
  rw [hR]
  refine congrArg g (Fin.ext ?_)
  show t.val / 16 = win0_7.index t (0 : Fin 3) * 1 + 1 * (j 0).val
  have hj : (j 0).val < 1 := (j 0).isLt
  rw [(idx_out t).2.2.2.1]; omega

/-- The block written back after the last tile of a row is that row's block of `G6`. -/
theorem flushed6_eq (c : Dev nD) (t : Fin cfg0.N) (hf : (cfg0.win 6).flush t = true) :
    (dats m 0 c).flushed 6 t = ((cfg0.win 6).blk t).view.read (Elt Ideal) (G6 m c) := by
  have h1 : t.val % 16 = 15 := (flush0_6 t).mp hf
  show (cfg0.win 6).cut (grid0.coords t) ((dats m 0 c).after 6 t) = _
  rw [after0_6, out6_last m c t h1]
  exact const_block6 t _ (rowSum (fV m c)) rfl

theorem flushed7_eq (c : Dev nD) (t : Fin cfg0.N) (hf : (cfg0.win 7).flush t = true) :
    (dats m 0 c).flushed 7 t = ((cfg0.win 7).blk t).view.read (Elt Ideal) (G7 m c) := by
  have h1 : t.val % 16 = 15 := (flush0_7 t).mp hf
  show (cfg0.win 7).cut (grid0.coords t) ((dats m 0 c).after 7 t) = _
  rw [after0_7, out7_last m c t h1]
  exact const_block7 t _ (rowSum (fC m c)) rfl

/-- An index of a result array is in point `t`'s block iff each coordinate is in the block's range on its axis. -/
theorem mem_blk6 (t : Fin cfg0.N) (i : S16x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v6_0).slice (win0_6.rect t)).set ↔ _
  rw [View.set_slice_whole, Rect.mem_set_unit]
  exact Iff.rfl

theorem mem_blk7 (t : Fin cfg0.N) (i : S16x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v6_1).slice (win0_7.rect t)).set ↔ _
  rw [View.set_slice_whole, Rect.mem_set_unit]
  exact Iff.rfl

/-- The last tile of row `I`, as a grid point. -/
def lastOf (I : Fin 16) : Fin cfg0.N := ⟨16 * I.val + 15, lt_of_lt_of_eq (by have := I.isLt; omega : 16 * I.val + 15 < 256) N_0.symm⟩

/-- The 16 blocks tile the first result array, so it ends holding `G6` … -/
theorem final6 (c : Dev nD) : (dats m 0 c).arrAt 6 cfg0.N = G6 m c :=
  (dats m 0 c).arrAt_eq_of_cover 6 (G6 m c) (flushed6_eq m c) fun i => by
    have h0 : (i 0).val < 16 := (i 0).isLt
    have h1 : (i 1).val < 8 := (i 1).isLt
    have h2 : (i 2).val < 128 := (i 2).isLt
    refine ⟨lastOf ⟨(i 0).val, h0⟩, (flush0_6 _).mpr (by show (16 * (i 0).val + 15) % 16 = 15; omega), ?_⟩
    rw [mem_blk6]
    obtain ⟨e0, e1, e2, -, -, -⟩ := idx_out (lastOf ⟨(i 0).val, h0⟩)
    have ev : (lastOf ⟨(i 0).val, h0⟩).val / 16 = (i 0).val := by show (16 * (i 0).val + 15) / 16 = (i 0).val; omega
    intro a
    match a with
    | ⟨0, _⟩ => show win0_6.index _ (0 : Fin 3) * 1 ≤ (i 0).val ∧ (i 0).val < win0_6.index _ (0 : Fin 3) * 1 + 1; rw [e0, ev]; omega
    | ⟨1, _⟩ => show win0_6.index _ (1 : Fin 3) * 8 ≤ (i 1).val ∧ (i 1).val < win0_6.index _ (1 : Fin 3) * 8 + 8; rw [e1]; omega
    | ⟨2, _⟩ => show win0_6.index _ (2 : Fin 3) * 128 ≤ (i 2).val ∧ (i 2).val < win0_6.index _ (2 : Fin 3) * 128 + 128; rw [e2]; omega

/-- … and the second `G7`. -/
theorem final7 (c : Dev nD) : (dats m 0 c).arrAt 7 cfg0.N = G7 m c :=
  (dats m 0 c).arrAt_eq_of_cover 7 (G7 m c) (flushed7_eq m c) fun i => by
    have h0 : (i 0).val < 16 := (i 0).isLt
    have h1 : (i 1).val < 8 := (i 1).isLt
    have h2 : (i 2).val < 128 := (i 2).isLt
    refine ⟨lastOf ⟨(i 0).val, h0⟩, (flush0_7 _).mpr (by show (16 * (i 0).val + 15) % 16 = 15; omega), ?_⟩
    rw [mem_blk7]
    obtain ⟨-, -, -, e0, e1, e2⟩ := idx_out (lastOf ⟨(i 0).val, h0⟩)
    have ev : (lastOf ⟨(i 0).val, h0⟩).val / 16 = (i 0).val := by show (16 * (i 0).val + 15) / 16 = (i 0).val; omega
    intro a
    match a with
    | ⟨0, _⟩ => show win0_7.index _ (0 : Fin 3) * 1 ≤ (i 0).val ∧ (i 0).val < win0_7.index _ (0 : Fin 3) * 1 + 1; rw [e0, ev]; omega
    | ⟨1, _⟩ => show win0_7.index _ (1 : Fin 3) * 8 ≤ (i 1).val ∧ (i 1).val < win0_7.index _ (1 : Fin 3) * 8 + 8; rw [e1]; omega
    | ⟨2, _⟩ => show win0_7.index _ (2 : Fin 3) * 128 ≤ (i 2).val ∧ (i 2).val < win0_7.index _ (2 : Fin 3) * 128 + 128; rw [e2]; omega

/-- The loss the tiled program ends with: total and count added tile by tile, then combined. -/
def result (c : Dev nD) : Buf (Elt Ideal) ((c : Thread nD τ).loc main_v16) :=
  fun _ => combine (tiled (fV m c)) (tiled (fC m c))

/-- The operations after the region, over the two result arrays as the region leaves them, give that loss. -/
theorem tail_eq (c : Dev nD) :
    Pipeline.afterTail₀ cfgs (dats m) 0 (V0 m) [hostOps1, hostOps1_1] c main_v16 = result m c := by
  rw [tail_result m c, final6 m c, final7 m c]
  rfl

/-- THE RUN, READ: every weakly fair execution ends with the result buffer at the tile-by-tile loss of the launch arrays
    and the three argument arrays unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.RefRun.lean ====
import proofs.«117161_j48455821033938_1_alg».proof.Proof.RefRead
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! The reference program's @main is a straight line of 39 elementwise, broadcast and reduction operations on
    tensor values: every operation writes one buffer of its own, once, and reads buffers written before it or the
    three arguments. So the buffer `main_v28` ends at the composition of the operations' functions along the
    data flow, applied to the arguments' contents at launch, and no operation writes an argument.

    The three functions the program calls (`relu`, `_where`, `_where_0`) are inlined: their operations act on
    buffers whose types are the values' types, so each is the plain operation on those buffers (the transport of
    contents along `ty_eq` is the identity there), and @main is the sequence below by unfolding alone. -/

/-- @main's 39 operations, in order, each called function's operations standing in its call's place. -/
abbrev ops : List (HloOp τ sig (Elt F)) :=
  [ unary main_arg2 main_v0 (broadcastInDim S8192x1 ![0] bcast_S8192_S8192x1_0 : (⟨S8192, .i32⟩ : BufTy).Contents (Elt F) → (⟨S8192x1, .i32⟩ : BufTy).Contents (Elt F)),
    unary main_arg2 main_v1 (broadcastInDim S1x8192 ![1] bcast_S8192_S1x8192_1 : (⟨S8192, .i32⟩ : BufTy).Contents (Elt F) → (⟨S1x8192, .i32⟩ : BufTy).Contents (Elt F)),
    unary main_v0 main_v2 (broadcastInDim S8192x8192 ![0, 1] bcast_S8192x1_S8192x8192_0_1 : (⟨S8192x1, .i32⟩ : BufTy).Contents (Elt F) → (⟨S8192x8192, .i32⟩ : BufTy).Contents (Elt F)),
    unary main_v1 main_v3 (broadcastInDim S8192x8192 ![0, 1] bcast_S1x8192_S8192x8192_0_1 : (⟨S1x8192, .i32⟩ : BufTy).Contents (Elt F) → (⟨S8192x8192, .i32⟩ : BufTy).Contents (Elt F)),
    binary main_v2 main_v3 main_v4 (cmpi .eq : (⟨S8192x8192, .i32⟩ : BufTy).Contents (Elt F) → (⟨S8192x8192, .i32⟩ : BufTy).Contents (Elt F) → (⟨S8192x8192, .i1⟩ : BufTy).Contents (Elt F)),
    unary main_arg1 main_v5 (broadcastInDim S8192x1 ![0] bcast_S8192_S8192x1_0 : (⟨S8192, .i32⟩ : BufTy).Contents (Elt F) → (⟨S8192x1, .i32⟩ : BufTy).Contents (Elt F)),
    unary main_arg1 main_v6 (broadcastInDim S1x8192 ![1] bcast_S8192_S1x8192_1 : (⟨S8192, .i32⟩ : BufTy).Contents (Elt F) → (⟨S1x8192, .i32⟩ : BufTy).Contents (Elt F)),
    unary main_v5 main_v7 (broadcastInDim S8192x8192 ![0, 1] bcast_S8192x1_S8192x8192_0_1 : (⟨S8192x1, .i32⟩ : BufTy).Contents (Elt F) → (⟨S8192x8192, .i32⟩ : BufTy).Contents (Elt F)),
    unary main_v6 main_v8 (broadcastInDim S8192x8192 ![0, 1] bcast_S1x8192_S8192x8192_0_1 : (⟨S1x8192, .i32⟩ : BufTy).Contents (Elt F) → (⟨S8192x8192, .i32⟩ : BufTy).Contents (Elt F)),
    binary main_v7 main_v8 main_v9 (cmpi .sgt : (⟨S8192x8192, .i32⟩ : BufTy).Contents (Elt F) → (⟨S8192x8192, .i32⟩ : BufTy).Contents (Elt F) → (⟨S8192x8192, .i1⟩ : BufTy).Contents (Elt F)),
    binary main_v4 main_v9 main_v10 (andi : (⟨S8192x8192, .i1⟩ : BufTy).Contents (Elt F) → (⟨S8192x8192, .i1⟩ : BufTy).Contents (Elt F) → (⟨S8192x8192, .i1⟩ : BufTy).Contents (Elt F)),
    unary main_arg0 main_v11 (broadcastInDim S8192x1 ![0] bcast_S8192_S8192x1_0 : (⟨S8192, .f32⟩ : BufTy).Contents (Elt F) → (⟨S8192x1, .f32⟩ : BufTy).Contents (Elt F)),
    unary main_arg0 main_v12 (broadcastInDim S1x8192 ![1] bcast_S8192_S1x8192_1 : (⟨S8192, .f32⟩ : BufTy).Contents (Elt F) → (⟨S1x8192, .f32⟩ : BufTy).Contents (Elt F)),
    unary main_v11 main_v13 (broadcastInDim S8192x8192 ![0, 1] bcast_S8192x1_S8192x8192_0_1 : (⟨S8192x1, .f32⟩ : BufTy).Contents (Elt F) → (⟨S8192x8192, .f32⟩ : BufTy).Contents (Elt F)),
    unary main_v12 main_v14 (broadcastInDim S8192x8192 ![0, 1] bcast_S1x8192_S8192x8192_0_1 : (⟨S1x8192, .f32⟩ : BufTy).Contents (Elt F) → (⟨S8192x8192, .f32⟩ : BufTy).Contents (Elt F)),
    binary main_v13 main_v14 main_v15 (subf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3DCCCCCD#32),
    unary main_cst main_v16 (broadcastInDim S8192x8192 ![] bcast_S_S8192x8192 : (⟨S_, .f32⟩ : BufTy).Contents (Elt F) → (⟨S8192x8192, .f32⟩ : BufTy).Contents (Elt F)),
    binary main_v15 main_v16 main_v17 (addf : (⟨S8192x8192, .f32⟩ : BufTy).Contents (Elt F) → (⟨S8192x8192, .f32⟩ : BufTy).Contents (Elt F) → (⟨S8192x8192, .f32⟩ : BufTy).Contents (Elt F)),
    nullary main_call0_cst (constant S_ .f32 0x00000000#32),
    unary main_call0_cst main_call0_v0 (broadcastInDim S8192x8192 ![] bcast_S_S8192x8192 : (⟨S_, .f32⟩ : BufTy).Contents (Elt F) → (⟨S8192x8192, .f32⟩ : BufTy).Contents (Elt F)),
    binary main_v17 main_call0_v0 main_v18 (maximumf : (⟨S8192x8192, .f32⟩ : BufTy).Contents (Elt F) → (⟨S8192x8192, .f32⟩ : BufTy).Contents (Elt F) → (⟨S8192x8192, .f32⟩ : BufTy).Contents (Elt F)),
    binary main_v18 main_v18 main_v19 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    unary main_cst_0 main_call1_v0 (broadcastInDim S8192x8192 ![] bcast_S_S8192x8192 : (⟨S_, .f32⟩ : BufTy).Contents (Elt F) → (⟨S8192x8192, .f32⟩ : BufTy).Contents (Elt F)),
    ternary main_v10 main_v19 main_call1_v0 main_v20 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    unary main_v10 main_v21 ((extui 32 · natLt_1_32) : (⟨S8192x8192, .i1⟩ : BufTy).Contents (Elt F) → (⟨S8192x8192, .i32⟩ : BufTy).Contents (Elt F)),
    nullary main_c (constantI S_ 32 0#32),
    binary main_v21 main_c main_v22 ((fun x v => Host.reduce IntOp.addi x v reducesTo_S8192x8192_S_d0_1 h_S_) : (⟨S8192x8192, .i32⟩ : BufTy).Contents (Elt F) → (⟨S_, .i32⟩ : BufTy).Contents (Elt F) → (⟨S_, .i32⟩ : BufTy).Contents (Elt F)),
    nullary main_cst_1 (constant S_ .f32 0x00000000#32),
    binary main_v20 main_cst_1 main_v23 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_c_2 (constantI S_ 32 0#32),
    binary main_v22 main_c_2 main_v24 (cmpi .sgt : (⟨S_, .i32⟩ : BufTy).Contents (Elt F) → (⟨S_, .i32⟩ : BufTy).Contents (Elt F) → (⟨S_, .i1⟩ : BufTy).Contents (Elt F)),
    nullary main_c_3 (constantI S_ 32 1#32),
    binary main_v22 main_c_3 main_v25 (maxsi : (⟨S_, .i32⟩ : BufTy).Contents (Elt F) → (⟨S_, .i32⟩ : BufTy).Contents (Elt F) → (⟨S_, .i32⟩ : BufTy).Contents (Elt F)),
    unary main_v25 main_v26 (sitofp .f32 : (⟨S_, .i32⟩ : BufTy).Contents (Elt F) → (⟨S_, .f32⟩ : BufTy).Contents (Elt F)),
    binary main_v23 main_v26 main_v27 (Host.divf : (⟨S_, .f32⟩ : BufTy).Contents (Elt F) → (⟨S_, .f32⟩ : BufTy).Contents (Elt F) → (⟨S_, .f32⟩ : BufTy).Contents (Elt F)),
    nullary main_cst_4 (constant S_ .f32 0x00000000#32),
    ternary main_v24 main_v27 main_cst_4 main_v28 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

/-- @main is that sequence (by unfolding: the called functions' bodies are their operations at the buffers). -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., ternary_bufs_sub .., unary_bufs_sub .., nullary_bufs_sub .., binary_bufs_sub .., nullary_bufs_sub .., binary_bufs_sub .., nullary_bufs_sub .., binary_bufs_sub .., nullary_bufs_sub .., binary_bufs_sub .., unary_bufs_sub .., binary_bufs_sub .., nullary_bufs_sub .., ternary_bufs_sub ..⟩

/-- What the result buffer holds after the 39 operations from any contents `V`: the composed value of the three
    arguments' contents in `V`. Each operation's result is read at its own buffer and passed over at every other
    one (the buffers are pairwise distinct references); what is left is the nested term `val_main_v28` abbreviates. -/
theorem after_main_v28 (V : Valuation τ sig (Elt F)) :
    after (ops (F := F)) V (Proc.devRef .tc main_v28)
      = ReadP.val_main_v28 (F := F) (V (Proc.devRef .tc main_arg0)) (V (Proc.devRef .tc main_arg1)) (V (Proc.devRef .tc main_arg2)) := by
  after_results_simp
  exact ReadP.val_main_v28_eq _ _ _

/-- No operation writes an argument: each keeps its contents. -/
theorem after_main_arg0 (V : Valuation τ sig (Elt F)) :
    after (ops (F := F)) V (Proc.devRef .tc main_arg0) = V (Proc.devRef .tc main_arg0) := by
  after_results_simp
theorem after_main_arg1 (V : Valuation τ sig (Elt F)) :
    after (ops (F := F)) V (Proc.devRef .tc main_arg1) = V (Proc.devRef .tc main_arg1) := by
  after_results_simp
theorem after_main_arg2 (V : Valuation τ sig (Elt F)) :
    after (ops (F := F)) V (Proc.devRef .tc main_arg2) = V (Proc.devRef .tc main_arg2) := by
  after_results_simp

/-- On every device, for any float values, from any memory with zero counters: every weakly fair execution of
    @main terminates with the result buffer at the composed value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = ReadP.val_main_v28 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v28).trans (after_main_v28 _),
      (h c main_arg0).trans (after_main_arg0 _),
      (h c main_arg1).trans (after_main_arg1 _),
      (h c main_arg2).trans (after_main_arg2 _)⟩)
    (run_seq scopedRefs_eq scopedSems_eq defs main (fun _ => ops) main_eq (fun _ => ops_sub) m ρ)

end Cert.ReferenceIdeal.RunP

end
-- ==== Proof.IntCount.lean ====
import proofs.«117161_j48455821033938_1_alg».proof.Proof.Spec
import Idealize.ShloMosaic.PureOps.Reduce

noncomputable section

namespace Cert.Mono

open Idealize.ShloMosaic

/-
  Counting the eligible pairs.

  Each ordered pair contributes one bit.  Widened to 32 bits that bit is the word 0 or the word 1, so adding the
  words over a finite set of pairs gives, as a 32-bit word, the number of pairs in the set whose bit is 1 (wrapping
  additions are additions modulo 2^32, and the number is reduced modulo 2^32 once at the end); read signed and as an
  extended real, each word is the real number 0 or 1, so the extended-real sum is that same number.  There are
  8192 * 8192 = 2^26 pairs, so the number is below 2^31: the 32-bit word holds it exactly, its signed reading is the
  number itself, and comparisons with 0 and with 1 agree on the word and on the real number.
-/

/-- A one-bit word widened to 32 bits: the word 1 when the bit is 1, else the word 0. -/
theorem setWidth_bit (b : BitVec 1) : b.setWidth 32 = if b = 1#1 then 1#32 else 0#32 := by
  rcases BitVec.eq_zero_or_eq_one b with h | h <;> subst h <;> decide

/-- The signed reading of a word below 2^31 is the number itself. -/
theorem toInt_ofNat_small (n : ℕ) (hn : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1]
  split_ifs with h
  · rfl
  · omega

/-- The number of eligible ordered pairs. -/
def npairs (gal grp : Fin 8192 → BitVec 32) : ℕ :=
  (Finset.univ.filter fun p : Fin 8192 × Fin 8192 => mbit gal grp p.1 p.2 = 1#1).card

theorem npairs_lt (gal grp : Fin 8192 → BitVec 32) : npairs gal grp < 2 ^ 31 := by
  unfold npairs
  refine lt_of_le_of_lt (Finset.card_le_univ _) ?_
  rw [Fintype.card_prod, Fintype.card_fin]
  norm_num

/-- Over any finite set, the extended-real sum of the widened bits read signed is the number of bits that are 1. -/
theorem sum_bits_ereal {ι : Type} [DecidableEq ι] (s : Finset ι) (b : ι → BitVec 1) :
    ∑ x ∈ s, ((((b x).setWidth 32).toInt : ℝ) : EReal) = ((((s.filter fun x => b x = 1#1).card : ℕ) : ℝ) : EReal) := by
  induction s using Finset.induction_on with
  | empty => simp
  | insert a s ha ih =>
    rw [Finset.sum_insert ha, ih, Finset.filter_insert, setWidth_bit]
    by_cases h : b a = 1#1
    · rw [if_pos h, if_pos h, Finset.card_insert_of_notMem (fun hm => ha (Finset.mem_filter.1 hm).1)]
      have h1 : ((1#32 : BitVec 32).toInt : ℝ) = 1 := by
        rw [BitVec.toInt_one (by decide)]; norm_num
      rw [h1, Nat.cast_succ, add_comm, EReal.coe_add]
    · rw [if_neg h, if_neg h]
      have h0 : ((0#32 : BitVec 32).toInt : ℝ) = 0 := by
        rw [BitVec.toInt_zero]; norm_num
      rw [h0, EReal.coe_zero, zero_add]

/-- The count's terms are 0 or 1, so their sum over all pairs is the number of eligible pairs. -/
theorem sum_cnt (gal grp : Fin 8192 → BitVec 32) :
    ∑ i : Fin 8192, ∑ j : Fin 8192, cnt gal grp i j = (((npairs gal grp : ℕ) : ℝ) : EReal) := by
  rw [← Fintype.sum_prod_type' (f := fun i j => cnt gal grp i j)]
  exact sum_bits_ereal Finset.univ (fun p : Fin 8192 × Fin 8192 => mbit gal grp p.1 p.2)

/-- Over any finite set, the wrapping 32-bit sum of the widened bits from 0 is the number of bits that are 1, as a
    32-bit word. -/
theorem fold_bits_word {ι : Type} [DecidableEq ι] (s : Finset ι) (b : ι → BitVec 1) :
    s.fold IntOp.addi (0#32 : BitVec 32) (fun x => (b x).setWidth 32)
      = BitVec.ofNat 32 (s.filter fun x => b x = 1#1).card := by
  induction s using Finset.induction_on with
  | empty => rfl
  | insert a s ha ih =>
    rw [Finset.fold_insert ha, ih, Finset.filter_insert, setWidth_bit]
    by_cases h : b a = 1#1
    · rw [if_pos h, if_pos h, Finset.card_insert_of_notMem (fun hm => ha (Finset.mem_filter.1 hm).1)]
      show (1#32 : BitVec 32) + BitVec.ofNat 32 _ = BitVec.ofNat 32 (_ + 1)
      rw [BitVec.ofNat_add, BitVec.add_comm]
    · rw [if_neg h, if_neg h]
      show (0#32 : BitVec 32) + BitVec.ofNat 32 _ = _
      rw [BitVec.zero_add]

/-- The 32-bit integer sum of the widened eligibility bits over the whole index square (a left fold of wrapping
    additions from 0, in row-major order) is that number as a 32-bit word: fewer than 2^31 terms, each 0 or 1. -/
theorem reduce_addi_count (gal grp : Fin 8192 → BitVec 32)
    (h : (⟨2, ![8192, 8192]⟩ : Shape).ReducesTo [0, 1] ⟨0, ![]⟩) (hu : 0 < (⟨0, ![]⟩ : Shape).numel)
    (j : (⟨0, ![]⟩ : Shape).Idx) :
    Host.reduce IntOp.addi
      (fun y : (⟨2, ![8192, 8192]⟩ : Shape).Idx => (mbit gal grp (y 0) (y 1)).setWidth 32)
      (fun _ : (⟨0, ![]⟩ : Shape).Idx => (0#32 : BitVec 32)) h hu j
      = BitVec.ofNat 32 (npairs gal grp) := by
  rw [Host.reduce_eq_fold]
  have hall : (Finset.univ.filter fun i : (⟨2, ![8192, 8192]⟩ : Shape).Idx => h.drop i = j) = Finset.univ :=
    Finset.filter_true_of_mem fun i _ => funext fun a => a.elim0
  rw [hall]
  refine (fold_bits_word Finset.univ
    (fun y : (⟨2, ![8192, 8192]⟩ : Shape).Idx => mbit gal grp (y 0) (y 1))).trans ?_
  refine congrArg (BitVec.ofNat 32) ?_
  unfold npairs
  refine Finset.card_equiv ValueIdx.idxEquiv2 fun i => ?_
  simp only [Finset.mem_filter, Finset.mem_univ, true_and]
  rfl

/-- For a count below 2^31, "greater than 0" read on the signed word and on the extended real agree … -/
theorem sgt_count (n : ℕ) (hn : n < 2 ^ 31) :
    IntOp.cmpi .sgt (BitVec.ofNat 32 n) 0#32 = Ideal.cmp .ogt (((n : ℕ) : ℝ) : EReal) 0 := by
  unfold IntOp.cmpi Ideal.cmp
  refine congrArg BitVec.ofBool ?_
  show (0#32 : BitVec 32).slt (BitVec.ofNat 32 n) = decide ((0 : EReal) < (((n : ℕ) : ℝ) : EReal))
  rw [BitVec.slt_eq_decide, BitVec.toInt_zero, toInt_ofNat_small n hn]
  refine decide_eq_decide.2 ?_
  rw [EReal.coe_pos, Nat.cast_pos, Nat.cast_pos]

/-- … and so do "the larger of it and 1". -/
theorem max_count (n : ℕ) (hn : n < 2 ^ 31) :
    ((((IntOp.maxsi (BitVec.ofNat 32 n) 1#32).toInt : ℤ) : ℝ) : EReal) = max ((((n : ℕ) : ℝ)) : EReal) 1 := by
  have hz : (IntOp.maxsi (BitVec.ofNat 32 n) 1#32).toInt = max (n : ℤ) 1 := by
    unfold IntOp.maxsi
    rw [BitVec.slt_eq_decide, BitVec.toInt_one (by decide), toInt_ofNat_small n hn]
    by_cases h : (1 : ℤ) < (n : ℤ)
    · rw [if_pos (decide_eq_true h), toInt_ofNat_small n hn, max_eq_left h.le]
    · rw [if_neg (by simpa using h), BitVec.toInt_one (by decide), max_eq_right (not_lt.1 h)]
  rw [hz, Int.cast_max, EReal.coe_strictMono.monotone.map_max, Int.cast_natCast, Int.cast_one, EReal.coe_one]

end Cert.Mono

end
-- ==== Proof.RefValue.lean ====
import proofs.«117161_j48455821033938_1_alg».proof.Proof.RefRead
import proofs.«117161_j48455821033938_1_alg».proof.Proof.Spec
import Idealize.ShloMosaic.Lib.ValueIdx
import proofs.«117161_j48455821033938_1_alg».proof.Proof.IntCount

noncomputable section

namespace Cert.ReferenceIdeal.RV

open Idealize.ShloMosaic Idealize.ShloMosaic.TcCoe Idealize.SL.Sem
open Cert.ReferenceIdeal Cert.ReferenceIdeal.Gen
open Cert.Mono

/-
  The one-shot program spreads each of the three lists along the rows and along the columns of the 8192 × 8192 index
  square, so that at the pair (i, j) it reads item i of a list on one side and item j on the other.  Its per-pair
  terms are therefore exactly the eligibility bit, the squared hinge where eligible and the widened bit of the
  specification.  The float sum over the square is the double sum of the hinge terms (starting from 0); the integer
  sum of the widened bits is the number of eligible pairs as a 32-bit word, and because that number is below 2^31 the
  signed tests "positive" and "the larger of it and 1" agree on the word and on the real number, which is also the
  extended-real sum of the count terms.  The last division and selection are then the specification's.
-/

/-- The row item of the pair (i, j). -/
theorem idx_row (i j : Fin 8192) :
    ReadP.idx_main_v0 (ReadP.idx_main_v2 (ValueIdx.ix2 i j)) = ValueIdx.ix1 i := by
  funext a; match a with | ⟨0, _⟩ => rfl

/-- The column item of the pair (i, j). -/
theorem idx_col (i j : Fin 8192) :
    ReadP.idx_main_v1 (ReadP.idx_main_v3 (ValueIdx.ix2 i j)) = ValueIdx.ix1 j := by
  funext a; match a with | ⟨0, _⟩ => rfl

/-- At the pair (i, j) the program's mask is the specification's eligibility bit. -/
theorem mask_at (x1 x2 : (⟨S8192, .i32⟩ : BufTy).Contents (Elt Ideal)) (i j : Fin 8192) :
    ReadP.val_main_v10 (F := Ideal) x1 x2 (ValueIdx.ix2 i j)
      = mbit (fun k => (x1 : S8192.Idx → BitVec 32) (ValueIdx.ix1 k))
          (fun k => (x2 : S8192.Idx → BitVec 32) (ValueIdx.ix1 k)) i j := by
  rw [ReadP.val_main_v10_apply, ReadP.val_main_v4_apply, ReadP.val_main_v9_apply, ReadP.val_main_v2_apply,
    ReadP.val_main_v3_apply, ReadP.val_main_v7_apply, ReadP.val_main_v8_apply, ReadP.val_main_v0_apply,
    ReadP.val_main_v1_apply, ReadP.val_main_v5_apply, ReadP.val_main_v6_apply]
  have e1 := idx_row i j
  have e2 := idx_col i j
  show IntOp.andi (IntOp.cmpi .eq (x2 (ReadP.idx_main_v0 (ReadP.idx_main_v2 (ValueIdx.ix2 i j))))
      (x2 (ReadP.idx_main_v1 (ReadP.idx_main_v3 (ValueIdx.ix2 i j)))))
    (IntOp.cmpi .sgt (x1 (ReadP.idx_main_v0 (ReadP.idx_main_v2 (ValueIdx.ix2 i j))))
      (x1 (ReadP.idx_main_v1 (ReadP.idx_main_v3 (ValueIdx.ix2 i j))))) = _
  rw [e1, e2]
  rfl

/-- At the pair (i, j) the program's masked squared hinge is the specification's contribution to the total. -/
theorem term_at (x0 : (⟨S8192, .f32⟩ : BufTy).Contents (Elt Ideal)) (x1 x2 : (⟨S8192, .i32⟩ : BufTy).Contents (Elt Ideal))
    (i j : Fin 8192) :
    ReadP.val_main_v20 (F := Ideal) x0 x1 x2 (ValueIdx.ix2 i j)
      = viol (fun k => (x0 : S8192.Idx → EReal) (ValueIdx.ix1 k)) (fun k => (x1 : S8192.Idx → BitVec 32) (ValueIdx.ix1 k))
          (fun k => (x2 : S8192.Idx → BitVec 32) (ValueIdx.ix1 k)) i j := by
  have h18 : ReadP.val_main_v18 (F := Ideal) x0 (ValueIdx.ix2 i j)
      = max ((x0 : S8192.Idx → EReal) (ValueIdx.ix1 i) - (x0 : S8192.Idx → EReal) (ValueIdx.ix1 j) + margin) 0 := by
    rw [ReadP.val_main_v18_apply, ReadP.val_main_v17_apply, ReadP.val_main_v15_apply, ReadP.val_main_v13_apply,
      ReadP.val_main_v14_apply, ReadP.val_main_v11_apply, ReadP.val_main_v12_apply, ReadP.val_main_v16_apply,
      ReadP.val_main_cst_apply, ReadP.val_main_call0_v0_apply, ReadP.val_main_call0_cst_apply]
    have e1 := idx_row i j
    have e2 := idx_col i j
    show max ((x0 (ReadP.idx_main_v0 (ReadP.idx_main_v2 (ValueIdx.ix2 i j)))
        - x0 (ReadP.idx_main_v1 (ReadP.idx_main_v3 (ValueIdx.ix2 i j)))) + Ideal.ofBits .f32 0x3DCCCCCD#32)
      (Ideal.ofBits .f32 0x00000000#32) = _
    rw [e1, e2, Ideal.ofBits_zero_f32]
  rw [ReadP.val_main_v20_apply, mask_at, ReadP.val_main_v19_apply, h18, ReadP.val_main_call1_v0_apply,
    ReadP.val_main_cst_0_apply]
  show Scalar.select _ _ (Ideal.ofBits .f32 0x00000000#32) = _
  rw [Ideal.ofBits_zero_f32]
  rfl

/-- The program's widened mask over the whole square is the specification's widened bit, pair by pair. -/
theorem count_stage (x1 x2 : (⟨S8192, .i32⟩ : BufTy).Contents (Elt Ideal)) :
    ReadP.val_main_v21 (F := Ideal) x1 x2
      = fun y : (⟨2, ![8192, 8192]⟩ : Shape).Idx =>
          (mbit (fun k => (x1 : S8192.Idx → BitVec 32) (ValueIdx.ix1 k))
            (fun k => (x2 : S8192.Idx → BitVec 32) (ValueIdx.ix1 k)) (y 0) (y 1)).setWidth 32 := by
  funext y
  rw [ReadP.val_main_v21_apply]
  exact congrArg (BitVec.setWidth 32)
    ((congrArg (ReadP.val_main_v10 (F := Ideal) x1 x2) (ValueIdx.eq_ix2 y)).trans (mask_at x1 x2 (y 0) (y 1)))

/-- The reference's result, as the generated stages state it, is the loss of Spec.lean over the three argument arrays
    read item by item: the total of all 8192² squared hinges divided by the larger of the number of eligible pairs and 1
    where that number is positive, else 0. -/
theorem ref_value (x0 : (⟨S8192, .f32⟩ : BufTy).Contents (Elt Ideal)) (x1 x2 : (⟨S8192, .i32⟩ : BufTy).Contents (Elt Ideal)) :
    ReadP.val_main_v28 (F := Ideal) x0 x1 x2
      = fun _ => combine
          (∑ i : Fin 8192, ∑ j : Fin 8192,
            viol (fun k => (x0 : S8192.Idx → EReal) (ValueIdx.ix1 k)) (fun k => (x1 : S8192.Idx → BitVec 32) (ValueIdx.ix1 k))
              (fun k => (x2 : S8192.Idx → BitVec 32) (ValueIdx.ix1 k)) i j)
          (∑ i : Fin 8192, ∑ j : Fin 8192,
            cnt (fun k => (x1 : S8192.Idx → BitVec 32) (ValueIdx.ix1 k)) (fun k => (x2 : S8192.Idx → BitVec 32) (ValueIdx.ix1 k)) i j) := by
  funext i0
  have hn := npairs_lt (fun k => (x1 : S8192.Idx → BitVec 32) (ValueIdx.ix1 k))
    (fun k => (x2 : S8192.Idx → BitVec 32) (ValueIdx.ix1 k))
  have h22 : ReadP.val_main_v22 (F := Ideal) x1 x2 i0
      = BitVec.ofNat 32 (npairs (fun k => (x1 : S8192.Idx → BitVec 32) (ValueIdx.ix1 k))
          (fun k => (x2 : S8192.Idx → BitVec 32) (ValueIdx.ix1 k))) := by
    unfold ReadP.val_main_v22
    rw [count_stage x1 x2]
    exact reduce_addi_count _ _ reducesTo_S8192x8192_S_d0_1 h_S_ i0
  have h23 : ReadP.val_main_v23 (F := Ideal) x0 x1 x2 i0
      = ∑ i : Fin 8192, ∑ j : Fin 8192,
          viol (fun k => (x0 : S8192.Idx → EReal) (ValueIdx.ix1 k)) (fun k => (x1 : S8192.Idx → BitVec 32) (ValueIdx.ix1 k))
            (fun k => (x2 : S8192.Idx → BitVec 32) (ValueIdx.ix1 k)) i j := by
    rw [ReadP.val_main_v23_apply, ReadP.val_main_cst_1_apply]
    show Ideal.ofBits .f32 0x00000000#32 + _ = _
    rw [Ideal.ofBits_zero_f32, zero_add, ValueIdx.sum_idx2]
    refine Finset.sum_congr rfl fun i _ => Finset.sum_congr rfl fun j _ => ?_
    exact term_at x0 x1 x2 i j
  rw [ReadP.val_main_v28_apply, ReadP.val_main_v24_apply, ReadP.val_main_v27_apply, ReadP.val_main_v26_apply,
    ReadP.val_main_v25_apply, h22, h23, sum_cnt, ReadP.val_main_c_2_apply, ReadP.val_main_c_3_apply,
    ReadP.val_main_cst_4_apply]
  unfold combine
  rw [← sgt_count _ hn, ← max_count _ hn]
  show Scalar.select _ _ (Ideal.ofBits .f32 0x00000000#32) = _
  rw [Ideal.ofBits_zero_f32]
  rfl

end Cert.ReferenceIdeal.RV

end
-- ==== Proof.lean ====
/-
  The certificate of the pairwise hinge loss ("monotonicity loss") over 8192 items.

  For predictions `p` and two integer labels per item, an ordered pair `(i, j)` is eligible when the items share a
  group and item `i` has strictly more units than item `j`; an eligible pair contributes
  `max (p i - p j + margin) 0 ^ 2` to the total and 1 to the count; the loss is `total / max count 1` where the count is
  positive, else 0.

  The reference forms all 8192 × 8192 terms at once and adds them with one float sum and one 32-bit integer sum.  The
  kernel walks a 16 × 16 grid of 512 × 512 tiles: at each tile it adds the tile's terms, accumulates the two tile sums
  along a row of tiles in two one-element scratch buffers (reset at the row's first tile, written out after its last),
  and the host adds the 16 row results and forms the quotient.  Over the extended reals the two orders of addition
  give the same total (addition there is commutative and associative: no finiteness is used), the integer count is
  below 2^31 so the wrapping 32-bit sum is the true number of eligible pairs, which is also what the kernel's sum of
  0/1 terms is, and the last four operations are the same on both sides.

  The parts: Spec (the per-pair terms, tiling of a double sum), IntCount (the count as a natural number, as a sum of 0/1
  terms and as a 32-bit word), Pieces and Payload (what one grid point leaves behind, as values), Blocks (the six input
  blocks of a grid point as rows and columns of the argument arrays), Chain (the running sums along a row of tiles, by
  induction on the grid point), Tail (the operations after the region), Final (the result arrays and the kernel's run),
  RefRead / RefRun / RefValue (the reference's stages, its run, and its result as the same loss).  The three frames are
  the programs' runs with the results dropped; the idealization changed nothing, so `preserves` is trivial.
-/
import proofs.«117161_j48455821033938_1_alg».proof.Defs
import proofs.«117161_j48455821033938_1_alg».proof.Proof.Gen.Kernel
import proofs.«117161_j48455821033938_1_alg».proof.Proof.Gen.Kernel.Skeleton
import proofs.«117161_j48455821033938_1_alg».proof.Proof.Gen.Kernel.Launch
import proofs.«117161_j48455821033938_1_alg».proof.Proof.Gen.Kernel.Points
import proofs.«117161_j48455821033938_1_alg».proof.Proof.Gen.Kernel.Frame
import proofs.«117161_j48455821033938_1_alg».proof.Proof.Gen.KernelIdeal
import proofs.«117161_j48455821033938_1_alg».proof.Proof.Gen.KernelIdeal.Skeleton
import proofs.«117161_j48455821033938_1_alg».proof.Proof.Gen.KernelIdeal.Launch
import proofs.«117161_j48455821033938_1_alg».proof.Proof.Gen.KernelIdeal.Points
import proofs.«117161_j48455821033938_1_alg».proof.Proof.Gen.KernelIdeal.Frame
import proofs.«117161_j48455821033938_1_alg».proof.Proof.Gen.ReferenceIdeal
import proofs.«117161_j48455821033938_1_alg».proof.Proof.Gen.Pre_finite_inputs
import proofs.«117161_j48455821033938_1_alg».proof.Proof.Final
import proofs.«117161_j48455821033938_1_alg».proof.Proof.RefRun
import proofs.«117161_j48455821033938_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories that agree on the three arrays, the kernel ends at the tile-by-tile loss and the reference at the
    all-at-once loss of the same arrays: equal extended reals, since a double sum may be added tile by tile. -/
theorem algebraic : Cert.algebraic_KernelIdeal_ReferenceIdeal := by
  intro m ρ m' ρ' _ hagree
  refine ⟨fun c => Cert.KernelIdeal.KV.result m c, Cert.KernelIdeal.KV.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RV.ref_value, (hagree c).1, (hagree c).2.1, (hagree c).2.2]
  funext i
  show Cert.Mono.combine _ _ = Cert.Mono.combine (Cert.Mono.tiled _) (Cert.Mono.tiled _)
  rw [Cert.Mono.tiled_eq, Cert.Mono.tiled_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
